-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90_1)) (v1 : (c : Dev Cert.KernelIdeal.nD) → Buf (Elt Ideal) ((c.tc : Thread Cert.KernelIdeal.nD Cert.KernelIdeal.τ).loc Cert.KernelIdeal.main_v90_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_1) = v0 c
          ∧ r.2.mem ((c.tc : Thread Cert.KernelIdeal.nD Cert.KernelIdeal.τ).loc Cert.KernelIdeal.main_v90_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S4x128 .f32) (main_arg7 : FVec F S4x128x128 .f32) (main_arg8 : FVec F S4x128 .f32) (main_arg9 : FVec F S128x1 .f32) (main_arg10 : FVec F S1 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S4x128x128 .f32) (main_arg6 : FVec F S4x128 .f32) (main_arg7 : FVec F S4x128x128 .f32) (main_arg8 : FVec F S4x128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x128 : Shape := ⟨2, ![1, 128]⟩
abbrev S2000x128 : Shape := ⟨2, ![2000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 115
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128x128, .f32⟩
  | .hbm, ⟨8, _⟩ => ⟨S4x128, .f32⟩
  | .hbm, ⟨9, _⟩ => ⟨S128x1, .f32⟩
  | .hbm, ⟨10, _⟩ => ⟨S1, .f32⟩
  | .hbm, ⟨11, _⟩ => ⟨S1x128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128x128, .f32⟩
  | .hbm, ⟨35, _⟩ => ⟨S128x128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S1x128, .f32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S1x128x128, .f32⟩
  | .hbm, ⟨103, _⟩ => ⟨S128x128, .f32⟩
  | .hbm, ⟨104, _⟩ => ⟨S1x128, .f32⟩
  | .hbm, ⟨105, _⟩ => ⟨S128, .f32⟩
  | .hbm, ⟨106, _⟩ => ⟨S1x128x128, .f32⟩
  | .hbm, ⟨107, _⟩ => ⟨S128x128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S1x128, .f32⟩
  | .hbm, ⟨112, _⟩ => ⟨S1x1, .f32⟩
  | .hbm, ⟨113, _⟩ => ⟨S50000x128, .f32⟩
  | .hbm, ⟨114, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x1, .f32⟩
  | .local _ .vmem, ⟨45, _⟩ => ⟨S1x1, .f32⟩
  | .local _ .vmem, ⟨46, _⟩ => ⟨S2000x128, .f32⟩
  | .local _ .vmem, ⟨47, _⟩ => ⟨S2000x128, .f32⟩
  | .local _ .vmem, ⟨48, _⟩ => ⟨S2000x1, .f32⟩
  | .local _ .vmem, ⟨49, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_7 : Ref sig .tc := ⟨.hbm, 89, rfl⟩
abbrev main_v69 : Ref sig .tc := ⟨.hbm, 90, rfl⟩
abbrev main_v70 : Ref sig .tc := ⟨.hbm, 91, rfl⟩
abbrev main_c_8 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_9 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90_0 : Ref sig .tc := ⟨.hbm, 113, rfl⟩
abbrev main_v90_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg8_1 : Ref sig .tc := ⟨.vmem, 47, rfl⟩
abbrev cc4_stg9_0 : Ref sig .tc := ⟨.vmem, 48, rfl⟩
abbrev cc4_stg9_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem8_1 : DmaSem sig := 47
abbrev cc4_sem9_0 : DmaSem sig := 48
abbrev cc4_sem9_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S2000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x1.size a ≤ S128x1.size a
  hwx4_6 : ∀ i : grid4.Coords, EltTy.bits .f32 = 32 ∨ (Rect.block (s := S128x1) S128x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S50000x128.size a
  hwx4_8 : ∀ i : grid4.Coords, EltTy.bits .f32 = 32 ∨ (Rect.block (s := S50000x128) S2000x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x1.size a ≤ S50000x1.size a
  hwx4_9 : ∀ i : grid4.Coords, EltTy.bits .f32 = 32 ∨ (Rect.block (s := S50000x1) S2000x1.size (cc4_transform_9 i) (hinb4_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg9) S128x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v89) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v90_0) S2000x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v90_1) S2000x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S50000x1 : Shape := ⟨2, ![50000, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x1, .f32⟩
  | 10 => ⟨S1, .f32⟩
  | 11 => ⟨S50000x128, .f32⟩
  | 12 => ⟨S1x128, .f32⟩
  | 13 => ⟨S50000x128, .f32⟩
  | 14 => ⟨S50000x128, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S1x128x128, .f32⟩
  | 16 => ⟨S128x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S50000x1, .f32⟩
  | 24 => ⟨S1x1, .f32⟩
  | 25 => ⟨S50000x1, .f32⟩
  | 26 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_1 : Ref sig .tc := ⟨.hbm, 52, rfl⟩
abbrev main_v36 : Ref sig .tc := ⟨.hbm, 53, rfl⟩
abbrev main_v37 : Ref sig .tc := ⟨.hbm, 54, rfl⟩
abbrev main_c_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_cst : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_4 : Ref sig .tc := ⟨.hbm, 85, rfl⟩
abbrev main_v64 : Ref sig .tc := ⟨.hbm, 86, rfl⟩
abbrev main_v65 : Ref sig .tc := ⟨.hbm, 87, rfl⟩
abbrev main_c_5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_6 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_call2_cst : Ref sig .tc := ⟨.hbm, 107, rfl⟩
abbrev main_call2_v0 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_7 : Ref sig .tc := ⟨.hbm, 118, rfl⟩
abbrev main_v92 : Ref sig .tc := ⟨.hbm, 119, rfl⟩
abbrev main_v93 : Ref sig .tc := ⟨.hbm, 120, rfl⟩
abbrev main_c_8 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_9 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_call3_cst : Ref sig .tc := ⟨.hbm, 140, rfl⟩
abbrev main_call3_v0 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's run with its two results named.

  The program is five grid launches among stretches of host operations. Every weakly fair execution ends, nothing
  faulting, with every unscoped buffer holding the last boundary's contents: the fold, from the launch memory, of each
  stretch's operations and of each launch's write-backs. Reading that fold at the two result buffers (instead of
  only at the argument buffers) gives the run this file states: the node logits and the last hidden state end at the
  fold's contents at their buffers, and the arguments end as launched.
-/
import proofs.«156105_j54795192762572_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel ends with the two results at the last boundary's contents
    and the arguments as launched. -/
theorem run : θ_run defs (onTc (τ := τ) (main (F := F))) ⟨m, fun _ => 0, ρ⟩ (fun r => ∀ c : Dev nD,
      r.2.mem ((c.tc : Thread nD τ).loc main_v90_1) = W10 m ρ c (Proc.devRef .tc main_v90_1)
      ∧ r.2.mem ((c.tc : Thread nD τ).loc main_v90_0) = W10 m ρ c (Proc.devRef .tc main_v90_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v90_1 (by decide)),
       h c _ (mem_uc main_v90_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Results

end
-- ==== Proof.LibMatrixRows.lean ====
/-
  Matrices over the extended reals, by coordinates, for any extents.

  Four operations on matrices indexed as rank-2 arrays are:

      times A B      (p, c) ↦ Σ_k A (p, k) · B (k, c)        the matrix product
      scaleRows f X  (p, c) ↦ f (p, 0) · X (p, c)            diag(f) · X, for f a one-column matrix
      column x       (p, 0) ↦ x p                            a vector laid out as one column
      clampBelow z X (p, c) ↦ max (X (p, c)) z               every entry clamped below at z (the rectifier at z = 0)

  each read at an index by `rfl`, and `rows σ X`, the rows of X picked by a map σ of row numbers (a band of
  consecutive rows is σ r = base + r). A product's rows depend only on the same rows of its left factor:

      rows σ (times A B) = times (rows σ A) B,      rows σ (scaleRows f X) = scaleRows (rows σ f) (rows σ X),
      rows σ (clampBelow z X) = clampBelow z (rows σ X)

  all by `rfl`. This is what makes a product computed band by band (each grid point loading a band of rows of the
  left factor and the whole right factor) the product of the whole arrays. Sums and products are total on the
  extended reals, so nothing here needs a finiteness hypothesis.
-/
import Idealize.ShloMosaic.Lib.ValueIdx
import Idealize.ShloMosaic.PureOps.Ideal.Laws

noncomputable section

namespace Cert.LibMatrixRows

open Idealize.ShloMosaic Idealize.ShloMosaic.ValueIdx
open scoped BigOperators

/-- An a × b matrix of extended reals, indexed as a rank-2 array is. -/
abbrev Mat (a b : ℕ) : Type := (⟨2, ![a, b]⟩ : Shape).Idx → EReal

/-- A vector of a extended reals, indexed as a rank-1 array is. -/
abbrev Vect (a : ℕ) : Type := (⟨1, ![a]⟩ : Shape).Idx → EReal

variable {M K N P : ℕ}

/-- The matrix product. -/
def times (A : Mat M K) (B : Mat K N) : Mat M N := fun i => ∑ k : Fin K, A (ix2 (i 0) k) * B (ix2 k (i 1))

/-- Row p of X multiplied by the entry p of a one-column matrix: diag(f) · X. -/
def scaleRows (f : Mat M 1) (X : Mat M N) : Mat M N := fun i => f (ix2 (i 0) (0 : Fin 1)) * X i

/-- A vector as a one-column matrix. -/
def column (x : Vect M) : Mat M 1 := fun i => x (ix1 (i 0))

/-- Every entry replaced by the larger of itself and z. -/
def clampBelow (z : EReal) (X : Mat M N) : Mat M N := fun i => max (X i) z

theorem times_apply (A : Mat M K) (B : Mat K N) (p : Fin M) (c : Fin N) :
    times A B (ix2 p c) = ∑ k : Fin K, A (ix2 p k) * B (ix2 k c) := rfl

theorem scaleRows_apply (f : Mat M 1) (X : Mat M N) (p : Fin M) (c : Fin N) :
    scaleRows f X (ix2 p c) = f (ix2 p (0 : Fin 1)) * X (ix2 p c) := rfl

theorem column_apply (x : Vect M) (p : Fin M) (u : Fin 1) : column x (ix2 p u) = x (ix1 p) := rfl

theorem clampBelow_apply (z : EReal) (X : Mat M N) (p : Fin M) (c : Fin N) :
    clampBelow z X (ix2 p c) = max (X (ix2 p c)) z := rfl

/-! ## Rows of a product

Row p of A · B is row p of A times B: cutting a band of rows out of the left factor and multiplying is cutting
the same band out of the product. The band is given by a map of row numbers. -/

/-- The rows of a matrix picked by a map of row numbers. -/
def rows (σ : Fin M → Fin P) (X : Mat P N) : Mat M N := fun i => X (ix2 (σ (i 0)) (i 1))

theorem rows_apply (σ : Fin M → Fin P) (X : Mat P N) (p : Fin M) (c : Fin N) : rows σ X (ix2 p c) = X (ix2 (σ p) c) := rfl

theorem rows_times (σ : Fin M → Fin P) (A : Mat P K) (B : Mat K N) : rows σ (times A B) = times (rows σ A) B := rfl

theorem rows_scaleRows (σ : Fin M → Fin P) (f : Mat P 1) (X : Mat P N) :
    rows σ (scaleRows f X) = scaleRows (rows σ f) (rows σ X) := rfl

theorem rows_clampBelow (σ : Fin M → Fin P) (z : EReal) (X : Mat P N) :
    rows σ (clampBelow z X) = clampBelow z (rows σ X) := rfl

end Cert.LibMatrixRows

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«156105_j54795192762572_1_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibLinear.lean ====
/-
  A linear layer — a matrix product plus one bias row repeated down the rows — read at an index at the exact
  instance, for any extents, on the vector unit and on the host.

  * `vectorLinear_apply`: the vector unit's `h · W` into a zero accumulator plus a one-row bias broadcast down the rows,
    at `(p, q)`, is `∑ k, h(p, k) · W(k, q) + b(0, q)`.
  * `hostLinear_apply`: the host's `dot_general h W` plus a one-row bias broadcast down the rows (`dims = [0, 1]`), at
    `(p, q)`, is the same sum.
  * `row_eq_cast`: a vector laid as one row by a broadcast (`dims = [1]`) and the same vector reshaped to one row are
    one array.
-/
import Idealize.ShloMosaic.Lib.ValueIdx
import Idealize.ShloMosaic.Lib.ValueLayout
import Idealize.ShloMosaic.Lib.Pipeline.Value
import Idealize.ShloMosaic.PureOps.Ideal.Laws
import proofs.«156105_j54795192762572_1_alg».proof.Proof.LibMatmul2d
import proofs.«156105_j54795192762572_1_alg».proof.Proof.LibHostStack
import proofs.«156105_j54795192762572_1_alg».proof.Proof.LibColumns

noncomputable section

namespace Cert.LibLinear

open Idealize.ShloMosaic Idealize.ShloMosaic.ValueIdx
open scoped BigOperators

variable {n K N : ℕ}

/-- A linear layer on the vector unit, at `(p, q)`. -/
theorem vectorLinear_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    addf (matmul (DotDims.plain n K N) none h W (constant ⟨2, ![n, N]⟩ .f32 0x00000000#32)) (broadcastTo ⟨2, ![n, N]⟩ b hb) (ix2 p q)
      = ∑ k : Fin K, h (ix2 p k) * W (ix2 k q) + b (ix2 (0 : Fin 1) q) := by
  have h1 := Cert.LibMatmul2d.matmul_plain_apply h W p q
  have h2 := broadcastTo_1b_ab_apply b hb p q
  show FloatOps.matmul (DotDims.plain n K N) none h W (constant ⟨2, ![n, N]⟩ .f32 0x00000000#32) (ix2 p q)
      + broadcastTo ⟨2, ![n, N]⟩ b hb (ix2 p q) = _
  rw [h1, h2]

/-- A linear layer on the host, its bias already one row, at `(p, q)`. -/
theorem hostLinear_apply {φ₁ φ₂ : FTy} (h : FVec Ideal ⟨2, ![n, K]⟩ φ₁) (W : FVec Ideal ⟨2, ![K, N]⟩ φ₂)
    (b : FVec Ideal ⟨2, ![1, N]⟩ .f32)
    (h₂ : (⟨2, ![1, N]⟩ : Shape).BroadcastsInDim ⟨2, ![n, N]⟩ (![0, 1] : Fin 2 → Fin (⟨2, ![n, N]⟩ : Shape).rank))
    (p : Fin n) (q : Fin N) :
    addf (Host.dotGeneral (DotDims.plain n K N) none h W) (broadcastInDim ⟨2, ![n, N]⟩ ![0, 1] h₂ b) (ix2 p q)
      = ∑ k : Fin K, h (ix2 p k) * W (ix2 k q) + b (ix2 (0 : Fin 1) q) := by
  have h1 := Cert.LibHostStack.dotGeneral_plain_apply h W p q
  have h2 := Cert.LibColumns.broadcastInDim_1b_ab_apply (a := n) b h₂ p q
  show Host.dotGeneral (DotDims.plain n K N) none h W (ix2 p q) + broadcastInDim ⟨2, ![n, N]⟩ ![0, 1] h₂ b (ix2 p q) = _
  rw [h1, h2]

/-- A vector reshaped to one row is the vector laid as one row by a broadcast. -/
theorem row_eq_cast {α : Type} (x : (⟨1, ![N]⟩ : Shape).Idx → α) (hc : (⟨1, ![N]⟩ : Shape).ShapeCasts ⟨2, ![1, N]⟩)
    (h₁ : (⟨1, ![N]⟩ : Shape).BroadcastsInDim ⟨2, ![1, N]⟩ (![1] : Fin 1 → Fin (⟨2, ![1, N]⟩ : Shape).rank)) :
    shapeCast ⟨2, ![1, N]⟩ x hc = broadcastInDim ⟨2, ![1, N]⟩ ![1] h₁ x := by
  funext j
  obtain ⟨u, q, rfl⟩ : ∃ (u : Fin 1) (q : Fin N), j = ix2 u q := ⟨j 0, j 1, eq_ix2 j⟩
  rw [Cert.LibColumns.broadcastInDim_b_1b_apply x h₁ u q]
  refine shapeCast_apply x hc _ _ ?_
  rw [Shape.rowMajor_val_two, Shape.rowMajor_val_one]
  have hu : u.val = 0 := by have := u.isLt; omega
  show q.val = u.val * N + q.val
  rw [hu, Nat.zero_mul, Nat.zero_add]

end Cert.LibLinear

end
-- ==== Proof.LibAffineRows.lean ====
/-
  Affine layers on matrices of extended reals, by coordinates, for any extents, and the rectified two-layer unit
  built from them, together with their behaviour under a choice of rows.

      plus A B        (p, c) ↦ A (p, c) + B (p, c)                    the entrywise sum
      addRow A b      (p, c) ↦ A (p, c) + b (0, c)                    one row b added to every row of A
      affine A W b    = addRow (times A W) b                          (p, c) ↦ Σ_k A (p, k) · W (k, c) + b (0, c)
      unit G H W₁ b₁ W₂ b₂ = affine (clampBelow 0 (affine (plus H G) W₁ b₁)) W₂ b₂

  Row p of each result depends only on row p of the left operands, so each commutes with `rows σ` (by `rfl`):
  a layer computed band of rows by band of rows against resident weights is the layer of the whole arrays.

  At the exact instance the printed spellings are these functions: the vector unit's product into a zero
  accumulator plus a broadcast one-row bias, and the host's `dot_general` plus a broadcast one-row bias, are
  `affine`; a maximum against a broadcast zero (either spelling) is `clampBelow 0`; `addf` is `plus`. Sums and
  products are total on the extended reals, so nothing here asks for finiteness.
-/
import Idealize.ShloMosaic.Lib.ValueIdx
import Idealize.ShloMosaic.Lib.ValueLayout
import Idealize.ShloMosaic.Lib.Pipeline.Value
import Idealize.ShloMosaic.PureOps.Ideal.Laws
import proofs.«156105_j54795192762572_1_alg».proof.Proof.LibMatrixRows
import proofs.«156105_j54795192762572_1_alg».proof.Proof.LibLinear

noncomputable section

namespace Cert.LibAffineRows

open Idealize.ShloMosaic Idealize.ShloMosaic.ValueIdx Cert.LibMatrixRows
open scoped BigOperators

variable {M K N P Q : ℕ}

/-- The entrywise sum. -/
def plus (A B : Mat M N) : Mat M N := fun i => A i + B i

/-- One row added to every row. -/
def addRow (A : Mat M N) (b : Mat 1 N) : Mat M N := fun i => A i + b (ix2 (0 : Fin 1) (i 1))

/-- A product plus one bias row. -/
def affine (A : Mat M K) (W : Mat K N) (b : Mat 1 N) : Mat M N := addRow (times A W) b

/-- The rectified two-layer unit applied to `H + G`. -/
def unit (G H : Mat M N) (W₁ : Mat N K) (b₁ : Mat 1 K) (W₂ : Mat K P) (b₂ : Mat 1 P) : Mat M P :=
  affine (clampBelow 0 (affine (plus H G) W₁ b₁)) W₂ b₂

theorem affine_apply (A : Mat M K) (W : Mat K N) (b : Mat 1 N) (p : Fin M) (c : Fin N) :
    affine A W b (ix2 p c) = ∑ k : Fin K, A (ix2 p k) * W (ix2 k c) + b (ix2 (0 : Fin 1) c) := rfl

theorem rows_plus (σ : Fin M → Fin Q) (A B : Mat Q N) : rows σ (plus A B) = plus (rows σ A) (rows σ B) := rfl

theorem rows_addRow (σ : Fin M → Fin Q) (A : Mat Q N) (b : Mat 1 N) : rows σ (addRow A b) = addRow (rows σ A) b := rfl

theorem rows_affine (σ : Fin M → Fin Q) (A : Mat Q K) (W : Mat K N) (b : Mat 1 N) :
    rows σ (affine A W b) = affine (rows σ A) W b := rfl

theorem rows_unit (σ : Fin M → Fin Q) (G H : Mat Q N) (W₁ : Mat N K) (b₁ : Mat 1 K) (W₂ : Mat K P) (b₂ : Mat 1 P) :
    rows σ (unit G H W₁ b₁ W₂ b₂) = unit (rows σ G) (rows σ H) W₁ b₁ W₂ b₂ := rfl

/-! ## One row of a band against the same row of the whole array

A band of rows `Ab` of `A` agrees with `A` row by row; at matching rows and equal columns the layer of the band is the
layer of the whole array. The band's row and the array's row are given by two indices `j` and `i`. -/

/-- An affine layer of a band, at `j`, is the affine layer of the whole array at `i`, when row `j 0` of the band is
    row `i 0` of the array, the weights and the bias row are the same, and the columns agree. -/
theorem affine_block (A : Mat Q K) (W : Mat K N) (b : Mat 1 N) (Ab : Mat M K) (Wb : Mat K N) (bb : Mat 1 N)
    (j : (⟨2, ![M, N]⟩ : Shape).Idx) (i : (⟨2, ![Q, N]⟩ : Shape).Idx)
    (hA : ∀ k : Fin K, Ab (ix2 (j 0) k) = A (ix2 (i 0) k)) (hW : Wb = W) (hb : bb = b)
    (hcol : (i 1).val = (j 1).val) :
    affine Ab Wb bb j = affine A W b i := by
  subst hW hb
  have e : (i 1 : Fin N) = j 1 := Fin.ext hcol
  show (∑ k : Fin K, Ab (ix2 (j 0) k) * Wb (ix2 k (j 1))) + bb (ix2 (0 : Fin 1) (j 1))
     = (∑ k : Fin K, A (ix2 (i 0) k) * Wb (ix2 k (i 1))) + bb (ix2 (0 : Fin 1) (i 1))
  rw [e]
  exact congrArg (· + bb (ix2 (0 : Fin 1) (j 1))) (Finset.sum_congr rfl fun k _ => by rw [hA k])

/-- The rectified two-layer unit of a band, at `j`, is the unit of the whole arrays at `i`, under the same
    agreements (both row-banded operands `G` and `H`). -/
theorem unit_block (G H : Mat Q N) (W₁ : Mat N K) (b₁ : Mat 1 K) (W₂ : Mat K P) (b₂ : Mat 1 P)
    (Gb Hb : Mat M N) (W₁b : Mat N K) (b₁b : Mat 1 K) (W₂b : Mat K P) (b₂b : Mat 1 P)
    (j : (⟨2, ![M, P]⟩ : Shape).Idx) (i : (⟨2, ![Q, P]⟩ : Shape).Idx)
    (hG : ∀ k : Fin N, Gb (ix2 (j 0) k) = G (ix2 (i 0) k)) (hH : ∀ k : Fin N, Hb (ix2 (j 0) k) = H (ix2 (i 0) k))
    (hW₁ : W₁b = W₁) (hb₁ : b₁b = b₁) (hW₂ : W₂b = W₂) (hb₂ : b₂b = b₂)
    (hcol : (i 1).val = (j 1).val) :
    unit Gb Hb W₁b b₁b W₂b b₂b j = unit G H W₁ b₁ W₂ b₂ i := by
  refine affine_block _ W₂ b₂ _ W₂b b₂b j i (fun k => ?_) hW₂ hb₂ hcol
  show max (affine (plus Hb Gb) W₁b b₁b (ix2 (j 0) k)) 0 = max (affine (plus H G) W₁ b₁ (ix2 (i 0) k)) 0
  refine congrArg (max · 0) (affine_block _ W₁ b₁ _ W₁b b₁b (ix2 (j 0) k) (ix2 (i 0) k) (fun k₂ => ?_) hW₁ hb₁ rfl)
  show Hb (ix2 (j 0) k₂) + Gb (ix2 (j 0) k₂) = H (ix2 (i 0) k₂) + G (ix2 (i 0) k₂)
  rw [hH k₂, hG k₂]

/-! ## The printed spellings at the exact instance -/

/-- The vector unit's product into a zero accumulator plus a one-row bias repeated down the rows. -/
theorem vectorAffine_eq {φ₁ φ₂ : FTy} (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul (DotDims.plain M K N) none h W (constant ⟨2, ![M, N]⟩ .f32 0x00000000#32)) (broadcastTo ⟨2, ![M, N]⟩ b hb)
      = affine (M := M) (K := K) (N := N) h W b := by
  funext j
  obtain ⟨p, q, rfl⟩ : ∃ (p : Fin M) (q : Fin N), j = ix2 p q := ⟨j 0, j 1, eq_ix2 j⟩
  rw [Cert.LibLinear.vectorLinear_apply]
  rfl

/-- The host's `dot_general` plus a one-row bias repeated down the rows. -/
theorem hostAffine_eq {φ₁ φ₂ : FTy} (h : FVec Ideal ⟨2, ![M, K]⟩ φ₁) (W : FVec Ideal ⟨2, ![K, N]⟩ φ₂)
    (b : FVec Ideal ⟨2, ![1, N]⟩ .f32)
    (h₂ : (⟨2, ![1, N]⟩ : Shape).BroadcastsInDim ⟨2, ![M, N]⟩ (![0, 1] : Fin 2 → Fin (⟨2, ![M, N]⟩ : Shape).rank)) :
    addf (Host.dotGeneral (DotDims.plain M K N) none h W) (broadcastInDim ⟨2, ![M, N]⟩ ![0, 1] h₂ b)
      = affine (M := M) (K := K) (N := N) h W b := by
  funext j
  obtain ⟨p, q, rfl⟩ : ∃ (p : Fin M) (q : Fin N), j = ix2 p q := ⟨j 0, j 1, eq_ix2 j⟩
  rw [Cert.LibLinear.hostLinear_apply]
  rfl

/-- The vector unit's maximum against a broadcast zero. -/
theorem vectorRelu_eq (X : FVec Ideal ⟨2, ![M, N]⟩ .f32) :
    maximumf X (broadcast ⟨2, ![M, N]⟩ (Scalar.ofBits .f32 0x00000000#32)) = clampBelow (M := M) (N := N) 0 X := by
  funext j
  show max (X j) (Ideal.ofBits .f32 0x00000000#32) = max (X j) 0
  rw [Ideal.ofBits_zero_f32]

/-- The host's maximum against a zero constant laid over the array. -/
theorem hostRelu_eq (X : FVec Ideal ⟨2, ![M, N]⟩ .f32)
    (h₀ : (⟨0, ![]⟩ : Shape).BroadcastsInDim ⟨2, ![M, N]⟩ (![] : Fin 0 → Fin (⟨2, ![M, N]⟩ : Shape).rank)) :
    maximumf X (broadcastInDim ⟨2, ![M, N]⟩ ![] h₀ (constant (F := Ideal) ⟨0, ![]⟩ .f32 0x00000000#32))
      = clampBelow (M := M) (N := N) 0 X := by
  funext j
  have h3 : broadcastInDim ⟨2, ![M, N]⟩ ![] h₀ (constant (F := Ideal) ⟨0, ![]⟩ .f32 0x00000000#32) j = 0 :=
    (broadcastInDim_apply _ h₀ _ j (fun a => a.elim0) (fun a => a.elim0)).trans Ideal.ofBits_zero_f32
  show max (X j) (broadcastInDim ⟨2, ![M, N]⟩ ![] h₀ (constant (F := Ideal) ⟨0, ![]⟩ .f32 0x00000000#32) j) = max (X j) 0
  rw [h3]

/-- The entrywise float sum. -/
theorem addf_eq_plus (A B : FVec Ideal ⟨2, ![M, N]⟩ .f32) : addf A B = plus (M := M) (N := N) A B := rfl

end Cert.LibAffineRows

end
-- ==== Proof.Network.lean ====
/-
  The network both programs compute, as one function of the argument arrays over the extended reals.

  A node's features are embedded by an affine layer; then, four times, every node's hidden row is added to the sum of
  its in-neighbours' hidden rows and passed through a rectified two-layer unit whose weights and biases are layer l's
  slices of the stacked parameters; a last affine layer with one output column reads the logits off the final hidden
  state. The neighbour sum is the host's own gather and scatter-add, taken as it is printed: the two programs apply the
  same operations there, so its meaning is never opened.
-/
import proofs.«156105_j54795192762572_1_alg».proof.Proof.Gen.KernelIdeal
import proofs.«156105_j54795192762572_1_alg».proof.Proof.LibAffineRows

noncomputable section

namespace Cert.Network

open Cert.KernelIdeal Cert.KernelIdeal.Facts₀ Cert.KernelIdeal.Facts
open Idealize.ShloMosaic Idealize.ShloMosaic.ValueIdx
open Cert.LibMatrixRows Cert.LibAffineRows

/-- One row of the edge list, as a vector of node numbers. -/
def edgeRow (o : ℕ) (hs : S2x800000.Slices ![o, 0] S1x800000) (E : (⟨S2x800000, .i32⟩ : BufTy).Contents (Elt Ideal)) :
    (⟨S800000, .i32⟩ : BufTy).Contents (Elt Ideal) :=
  shapeCast S800000 (extractStridedSlice S1x800000 ![o, 0] E hs) shapeCasts_S1x800000_S800000

/-- Layer `l`'s weight matrix out of the stack. -/
def weightOf (l : ℕ) (hs : S4x128x128.Slices ![l, 0, 0] S1x128x128) (X : (⟨S4x128x128, .f32⟩ : BufTy).Contents (Elt Ideal)) :
    (⟨S128x128, .f32⟩ : BufTy).Contents (Elt Ideal) :=
  shapeCast S128x128 (extractStridedSlice S1x128x128 ![l, 0, 0] X hs) shapeCasts_S1x128x128_S128x128

/-- Layer `l`'s bias out of the stack, as a vector. -/
def biasOf (l : ℕ) (hs : S4x128.Slices ![l, 0] S1x128) (X : (⟨S4x128, .f32⟩ : BufTy).Contents (Elt Ideal)) :
    (⟨S128, .f32⟩ : BufTy).Contents (Elt Ideal) :=
  shapeCast S128 (extractStridedSlice S1x128 ![l, 0] X hs) shapeCasts_S1x128_S128

/-- The sum over in-neighbours: rows of `H` picked at the sources `s` (a negative number wrapped by the node count)
    and added into a zero array at the destinations `d`. -/
def neighbourSum (H : (⟨S50000x128, .f32⟩ : BufTy).Contents (Elt Ideal)) (s d : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 H
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- Layer `l`'s bias out of the stack, as one row. -/
def biasRow (l : ℕ) (hs : S4x128.Slices ![l, 0] S1x128) (X : (⟨S4x128, .f32⟩ : BufTy).Contents (Elt Ideal)) :
    (⟨S1x128, .f32⟩ : BufTy).Contents (Elt Ideal) :=
  shapeCast S1x128 (biasOf l hs X) shapeCasts_S128_S1x128

/-- The embedding: features · weight + bias. -/
def embed (X : (⟨S50000x128, .f32⟩ : BufTy).Contents (Elt Ideal)) (W : (⟨S128x128, .f32⟩ : BufTy).Contents (Elt Ideal))
    (b : (⟨S128, .f32⟩ : BufTy).Contents (Elt Ideal)) : (⟨S50000x128, .f32⟩ : BufTy).Contents (Elt Ideal) :=
  affine (M := 50000) (K := 128) (N := 128) X W (shapeCast S1x128 b shapeCasts_S128_S1x128)

/-- One graph layer: the rectified two-layer unit, with layer `l`'s parameters, of each node's row plus its
    in-neighbours' rows. -/
def layer (l : ℕ) (h₅ : S4x128x128.Slices ![l, 0, 0] S1x128x128) (h₆ : S4x128.Slices ![l, 0] S1x128)
    (H : (⟨S50000x128, .f32⟩ : BufTy).Contents (Elt Ideal)) (s d : (⟨S800000, .i32⟩ : BufTy).Contents (Elt Ideal))
    (W₁ : (⟨S4x128x128, .f32⟩ : BufTy).Contents (Elt Ideal)) (B₁ : (⟨S4x128, .f32⟩ : BufTy).Contents (Elt Ideal))
    (W₂ : (⟨S4x128x128, .f32⟩ : BufTy).Contents (Elt Ideal)) (B₂ : (⟨S4x128, .f32⟩ : BufTy).Contents (Elt Ideal)) :
    (⟨S50000x128, .f32⟩ : BufTy).Contents (Elt Ideal) :=
  unit (M := 50000) (N := 128) (K := 128) (P := 128) (neighbourSum H s d) H (weightOf l h₅ W₁) (biasRow l h₆ B₁) (weightOf l h₅ W₂) (biasRow l h₆ B₂)

/-- The hidden state after the four layers. -/
def hidden (X : (⟨S50000x128, .f32⟩ : BufTy).Contents (Elt Ideal)) (E : (⟨S2x800000, .i32⟩ : BufTy).Contents (Elt Ideal))
    (W : (⟨S128x128, .f32⟩ : BufTy).Contents (Elt Ideal)) (b : (⟨S128, .f32⟩ : BufTy).Contents (Elt Ideal))
    (W₁ : (⟨S4x128x128, .f32⟩ : BufTy).Contents (Elt Ideal)) (B₁ : (⟨S4x128, .f32⟩ : BufTy).Contents (Elt Ideal))
    (W₂ : (⟨S4x128x128, .f32⟩ : BufTy).Contents (Elt Ideal)) (B₂ : (⟨S4x128, .f32⟩ : BufTy).Contents (Elt Ideal)) :
    (⟨S50000x128, .f32⟩ : BufTy).Contents (Elt Ideal) :=
  let s := edgeRow 0 slices_S2x800000_S1x800000_0_0 E
  let d := edgeRow 1 slices_S2x800000_S1x800000_1_0 E
  layer 3 slices_S4x128x128_S1x128x128_3_0_0 slices_S4x128_S1x128_3_0
    (layer 2 slices_S4x128x128_S1x128x128_2_0_0 slices_S4x128_S1x128_2_0
      (layer 1 slices_S4x128x128_S1x128x128_1_0_0 slices_S4x128_S1x128_1_0
        (layer 0 slices_S4x128x128_S1x128x128_0_0_0 slices_S4x128_S1x128_0_0 (embed X W b) s d W₁ B₁ W₂ B₂)
        s d W₁ B₁ W₂ B₂)
      s d W₁ B₁ W₂ B₂)
    s d W₁ B₁ W₂ B₂

/-- The node logits: the final hidden state · read-out weight + offset. -/
def logits (X : (⟨S50000x128, .f32⟩ : BufTy).Contents (Elt Ideal)) (E : (⟨S2x800000, .i32⟩ : BufTy).Contents (Elt Ideal))
    (W : (⟨S128x128, .f32⟩ : BufTy).Contents (Elt Ideal)) (b : (⟨S128, .f32⟩ : BufTy).Contents (Elt Ideal))
    (W₁ : (⟨S4x128x128, .f32⟩ : BufTy).Contents (Elt Ideal)) (B₁ : (⟨S4x128, .f32⟩ : BufTy).Contents (Elt Ideal))
    (W₂ : (⟨S4x128x128, .f32⟩ : BufTy).Contents (Elt Ideal)) (B₂ : (⟨S4x128, .f32⟩ : BufTy).Contents (Elt Ideal))
    (w : (⟨S128x1, .f32⟩ : BufTy).Contents (Elt Ideal)) (o : (⟨S1, .f32⟩ : BufTy).Contents (Elt Ideal)) :
    (⟨S50000x1, .f32⟩ : BufTy).Contents (Elt Ideal) :=
  affine (M := 50000) (K := 128) (N := 1) (hidden X E W b W₁ B₁ W₂ B₂) w (shapeCast S1x1 o shapeCasts_S1_S1x1)

end Cert.Network

end
-- ==== Proof.KernelHost.lean ====
/-
  What the host operations between the launches leave, buffer by buffer.

  Between two launches the program slices the stacked weights and biases of the coming layer, and sums, for every
  node, the hidden rows of its in-neighbours: the sources (negative node numbers wrapped by the node count) pick rows
  of the hidden state, and the rows are added into a zero array at the destinations. These are plain evaluations of
  the printed operations; nothing here opens the gather or the scatter. A buffer no operation of a stretch writes, and
  no launch writes, keeps its contents, which is how the edge rows computed once, and the argument arrays, reach the
  later stretches.
-/
import proofs.«156105_j54795192762572_1_alg».proof.Proof.Gen.KernelIdeal.Frame
import proofs.«156105_j54795192762572_1_alg».proof.Proof.Network
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.StableHlo Cert.Network

variable (m : (ℓ : Loc nD τ sig) → Buf (Elt Ideal) ℓ) (ρ : Dev nD → PrngReg) (c : Dev nD)

/-- The argument arrays the later stretches and launches read. -/
abbrev lateArgs : List (Ref sig .tc) := [main_arg1, main_arg5, main_arg6, main_arg7, main_arg8, main_arg9, main_arg10]

/-! ## Before the first launch -/

theorem features_at1 : V1 m ρ c main_arg0 = m ((c : Thread nD τ).loc main_arg0) := by
  show StableHlo.after hostOps0 (W0 m ρ c) (Proc.devRef .tc main_arg0) = _
  after_results <;> rfl
theorem embedWeight_at1 : V1 m ρ c main_arg3 = m ((c : Thread nD τ).loc main_arg3) := by
  show StableHlo.after hostOps0 (W0 m ρ c) (Proc.devRef .tc main_arg3) = _
  after_results <;> rfl
theorem embedBias_at1 : V1 m ρ c main_v0 = shapeCast S1x128 (m ((c : Thread nD τ).loc main_arg4)) Facts₀.shapeCasts_S128_S1x128 := by
  show StableHlo.after hostOps0 (W0 m ρ c) (Proc.devRef .tc main_v0) = _
  after_results <;> rfl
theorem args_at2 : ∀ b ∈ lateArgs, V2 m ρ c b = m ((c : Thread nD τ).loc b) := by
  intro b hb
  simp only [lateArgs, List.mem_cons, List.mem_singleton, List.not_mem_nil, or_false] at hb
  rcases hb with rfl | rfl | rfl | rfl | rfl | rfl | rfl
  all_goals
    refine (W2_of_ne m ρ c _ (by decide)).trans ?_
    show StableHlo.after hostOps0 (W0 m ρ c) _ = _
    after_results <;> rfl

/-! ## Between launch 1 and launch 2 -/

theorem hidden_at3 : V3 m ρ c main_v1 = V2 m ρ c main_v1 := by
  show StableHlo.after hostOps1 (W2 m ρ c) (Proc.devRef .tc main_v1) = _
  after_results_simp <;> rfl
theorem sums_at3 : V3 m ρ c main_v15 = neighbourSum (V2 m ρ c main_v1) (edgeRow 0 Facts₀.slices_S2x800000_S1x800000_0_0 (V2 m ρ c main_arg1)) (edgeRow 1 Facts₀.slices_S2x800000_S1x800000_1_0 (V2 m ρ c main_arg1)) := by
  show StableHlo.after hostOps1 (W2 m ρ c) (Proc.devRef .tc main_v15) = _
  after_results_simp <;> rfl
theorem weight1_at3 : V3 m ρ c main_v17 = weightOf 0 Facts₀.slices_S4x128x128_S1x128x128_0_0_0 (V2 m ρ c main_arg5) := by
  show StableHlo.after hostOps1 (W2 m ρ c) (Proc.devRef .tc main_v17) = _
  after_results_simp <;> rfl
theorem bias1_at3 : V3 m ρ c main_v24 = biasRow 0 Facts₀.slices_S4x128_S1x128_0_0 (V2 m ρ c main_arg6) := by
  show StableHlo.after hostOps1 (W2 m ρ c) (Proc.devRef .tc main_v24) = _
  after_results_simp <;> rfl
theorem weight2_at3 : V3 m ρ c main_v21 = weightOf 0 Facts₀.slices_S4x128x128_S1x128x128_0_0_0 (V2 m ρ c main_arg7) := by
  show StableHlo.after hostOps1 (W2 m ρ c) (Proc.devRef .tc main_v21) = _
  after_results_simp <;> rfl
theorem bias2_at3 : V3 m ρ c main_v25 = biasRow 0 Facts₀.slices_S4x128_S1x128_0_0 (V2 m ρ c main_arg8) := by
  show StableHlo.after hostOps1 (W2 m ρ c) (Proc.devRef .tc main_v25) = _
  after_results_simp <;> rfl
theorem sources_at3 : V3 m ρ c main_v3 = edgeRow 0 Facts₀.slices_S2x800000_S1x800000_0_0 (V2 m ρ c main_arg1) := by
  show StableHlo.after hostOps1 (W2 m ρ c) (Proc.devRef .tc main_v3) = _
  after_results_simp <;> rfl
theorem targets_at3 : V3 m ρ c main_v5 = edgeRow 1 Facts₀.slices_S2x800000_S1x800000_1_0 (V2 m ρ c main_arg1) := by
  show StableHlo.after hostOps1 (W2 m ρ c) (Proc.devRef .tc main_v5) = _
  after_results_simp <;> rfl
theorem sources_at4 : V4 m ρ c main_v3 = V3 m ρ c main_v3 := W4_of_ne m ρ c main_v3 (by decide)
theorem targets_at4 : V4 m ρ c main_v5 = V3 m ρ c main_v5 := W4_of_ne m ρ c main_v5 (by decide)
theorem args_at4 : ∀ b ∈ lateArgs, V4 m ρ c b = m ((c : Thread nD τ).loc b) := by
  intro b hb
  have hprev := args_at2 m ρ c b hb
  simp only [lateArgs, List.mem_cons, List.mem_singleton, List.not_mem_nil, or_false] at hb
  rcases hb with rfl | rfl | rfl | rfl | rfl | rfl | rfl
  all_goals
    refine (W4_of_ne m ρ c _ (by decide)).trans ?_
    refine Eq.trans ?_ hprev
    show StableHlo.after hostOps1 (W2 m ρ c) _ = _
    after_results_simp <;> rfl

/-! ## Between launch 2 and launch 3 -/

theorem hidden_at5 : V5 m ρ c main_v26 = V4 m ρ c main_v26 := by
  show StableHlo.after hostOps2 (W4 m ρ c) (Proc.devRef .tc main_v26) = _
  after_results_simp <;> rfl
theorem sums_at5 : V5 m ρ c main_v36 = neighbourSum (V4 m ρ c main_v26) (V4 m ρ c main_v3) (V4 m ρ c main_v5) := by
  show StableHlo.after hostOps2 (W4 m ρ c) (Proc.devRef .tc main_v36) = _
  after_results_simp <;> rfl
theorem weight1_at5 : V5 m ρ c main_v38 = weightOf 1 Facts₀.slices_S4x128x128_S1x128x128_1_0_0 (V4 m ρ c main_arg5) := by
  show StableHlo.after hostOps2 (W4 m ρ c) (Proc.devRef .tc main_v38) = _
  after_results_simp <;> rfl
theorem bias1_at5 : V5 m ρ c main_v45 = biasRow 1 Facts₀.slices_S4x128_S1x128_1_0 (V4 m ρ c main_arg6) := by
  show StableHlo.after hostOps2 (W4 m ρ c) (Proc.devRef .tc main_v45) = _
  after_results_simp <;> rfl
theorem weight2_at5 : V5 m ρ c main_v42 = weightOf 1 Facts₀.slices_S4x128x128_S1x128x128_1_0_0 (V4 m ρ c main_arg7) := by
  show StableHlo.after hostOps2 (W4 m ρ c) (Proc.devRef .tc main_v42) = _
  after_results_simp <;> rfl
theorem bias2_at5 : V5 m ρ c main_v46 = biasRow 1 Facts₀.slices_S4x128_S1x128_1_0 (V4 m ρ c main_arg8) := by
  show StableHlo.after hostOps2 (W4 m ρ c) (Proc.devRef .tc main_v46) = _
  after_results_simp <;> rfl
theorem sources_at5 : V5 m ρ c main_v3 = V4 m ρ c main_v3 := by
  show StableHlo.after hostOps2 (W4 m ρ c) (Proc.devRef .tc main_v3) = _
  after_results_simp <;> rfl
theorem targets_at5 : V5 m ρ c main_v5 = V4 m ρ c main_v5 := by
  show StableHlo.after hostOps2 (W4 m ρ c) (Proc.devRef .tc main_v5) = _
  after_results_simp <;> rfl
theorem sources_at6 : V6 m ρ c main_v3 = V5 m ρ c main_v3 := W6_of_ne m ρ c main_v3 (by decide)
theorem targets_at6 : V6 m ρ c main_v5 = V5 m ρ c main_v5 := W6_of_ne m ρ c main_v5 (by decide)
theorem args_at6 : ∀ b ∈ lateArgs, V6 m ρ c b = m ((c : Thread nD τ).loc b) := by
  intro b hb
  have hprev := args_at4 m ρ c b hb
  simp only [lateArgs, List.mem_cons, List.mem_singleton, List.not_mem_nil, or_false] at hb
  rcases hb with rfl | rfl | rfl | rfl | rfl | rfl | rfl
  all_goals
    refine (W6_of_ne m ρ c _ (by decide)).trans ?_
    refine Eq.trans ?_ hprev
    show StableHlo.after hostOps2 (W4 m ρ c) _ = _
    after_results_simp <;> rfl

/-! ## Between launch 3 and launch 4 -/

theorem hidden_at7 : V7 m ρ c main_v47 = V6 m ρ c main_v47 := by
  show StableHlo.after hostOps3 (W6 m ρ c) (Proc.devRef .tc main_v47) = _
  after_results_simp <;> rfl
theorem sums_at7 : V7 m ρ c main_v57 = neighbourSum (V6 m ρ c main_v47) (V6 m ρ c main_v3) (V6 m ρ c main_v5) := by
  show StableHlo.after hostOps3 (W6 m ρ c) (Proc.devRef .tc main_v57) = _
  after_results_simp <;> rfl
theorem weight1_at7 : V7 m ρ c main_v59 = weightOf 2 Facts₀.slices_S4x128x128_S1x128x128_2_0_0 (V6 m ρ c main_arg5) := by
  show StableHlo.after hostOps3 (W6 m ρ c) (Proc.devRef .tc main_v59) = _
  after_results_simp <;> rfl
theorem bias1_at7 : V7 m ρ c main_v66 = biasRow 2 Facts₀.slices_S4x128_S1x128_2_0 (V6 m ρ c main_arg6) := by
  show StableHlo.after hostOps3 (W6 m ρ c) (Proc.devRef .tc main_v66) = _
  after_results_simp <;> rfl
theorem weight2_at7 : V7 m ρ c main_v63 = weightOf 2 Facts₀.slices_S4x128x128_S1x128x128_2_0_0 (V6 m ρ c main_arg7) := by
  show StableHlo.after hostOps3 (W6 m ρ c) (Proc.devRef .tc main_v63) = _
  after_results_simp <;> rfl
theorem bias2_at7 : V7 m ρ c main_v67 = biasRow 2 Facts₀.slices_S4x128_S1x128_2_0 (V6 m ρ c main_arg8) := by
  show StableHlo.after hostOps3 (W6 m ρ c) (Proc.devRef .tc main_v67) = _
  after_results_simp <;> rfl
theorem sources_at7 : V7 m ρ c main_v3 = V6 m ρ c main_v3 := by
  show StableHlo.after hostOps3 (W6 m ρ c) (Proc.devRef .tc main_v3) = _
  after_results_simp <;> rfl
theorem targets_at7 : V7 m ρ c main_v5 = V6 m ρ c main_v5 := by
  show StableHlo.after hostOps3 (W6 m ρ c) (Proc.devRef .tc main_v5) = _
  after_results_simp <;> rfl
theorem sources_at8 : V8 m ρ c main_v3 = V7 m ρ c main_v3 := W8_of_ne m ρ c main_v3 (by decide)
theorem targets_at8 : V8 m ρ c main_v5 = V7 m ρ c main_v5 := W8_of_ne m ρ c main_v5 (by decide)
theorem args_at8 : ∀ b ∈ lateArgs, V8 m ρ c b = m ((c : Thread nD τ).loc b) := by
  intro b hb
  have hprev := args_at6 m ρ c b hb
  simp only [lateArgs, List.mem_cons, List.mem_singleton, List.not_mem_nil, or_false] at hb
  rcases hb with rfl | rfl | rfl | rfl | rfl | rfl | rfl
  all_goals
    refine (W8_of_ne m ρ c _ (by decide)).trans ?_
    refine Eq.trans ?_ hprev
    show StableHlo.after hostOps3 (W6 m ρ c) _ = _
    after_results_simp <;> rfl

/-! ## Between launch 4 and launch 5 -/

theorem hidden_at9 : V9 m ρ c main_v68 = V8 m ρ c main_v68 := by
  show StableHlo.after hostOps4 (W8 m ρ c) (Proc.devRef .tc main_v68) = _
  after_results_simp <;> rfl
theorem sums_at9 : V9 m ρ c main_v78 = neighbourSum (V8 m ρ c main_v68) (V8 m ρ c main_v3) (V8 m ρ c main_v5) := by
  show StableHlo.after hostOps4 (W8 m ρ c) (Proc.devRef .tc main_v78) = _
  after_results_simp <;> rfl
theorem weight1_at9 : V9 m ρ c main_v80 = weightOf 3 Facts₀.slices_S4x128x128_S1x128x128_3_0_0 (V8 m ρ c main_arg5) := by
  show StableHlo.after hostOps4 (W8 m ρ c) (Proc.devRef .tc main_v80) = _
  after_results_simp <;> rfl
theorem bias1_at9 : V9 m ρ c main_v87 = biasRow 3 Facts₀.slices_S4x128_S1x128_3_0 (V8 m ρ c main_arg6) := by
  show StableHlo.after hostOps4 (W8 m ρ c) (Proc.devRef .tc main_v87) = _
  after_results_simp <;> rfl
theorem weight2_at9 : V9 m ρ c main_v84 = weightOf 3 Facts₀.slices_S4x128x128_S1x128x128_3_0_0 (V8 m ρ c main_arg7) := by
  show StableHlo.after hostOps4 (W8 m ρ c) (Proc.devRef .tc main_v84) = _
  after_results_simp <;> rfl
theorem bias2_at9 : V9 m ρ c main_v88 = biasRow 3 Facts₀.slices_S4x128_S1x128_3_0 (V8 m ρ c main_arg8) := by
  show StableHlo.after hostOps4 (W8 m ρ c) (Proc.devRef .tc main_v88) = _
  after_results_simp <;> rfl
theorem sources_at9 : V9 m ρ c main_v3 = V8 m ρ c main_v3 := by
  show StableHlo.after hostOps4 (W8 m ρ c) (Proc.devRef .tc main_v3) = _
  after_results_simp <;> rfl
theorem targets_at9 : V9 m ρ c main_v5 = V8 m ρ c main_v5 := by
  show StableHlo.after hostOps4 (W8 m ρ c) (Proc.devRef .tc main_v5) = _
  after_results_simp <;> rfl
theorem offset_at9 : V9 m ρ c main_v89 = shapeCast S1x1 (V8 m ρ c main_arg10) Facts₀.shapeCasts_S1_S1x1 := by
  show StableHlo.after hostOps4 (W8 m ρ c) (Proc.devRef .tc main_v89) = _
  after_results_simp <;> rfl
theorem readWeight_at9 : V9 m ρ c main_arg9 = V8 m ρ c main_arg9 := by
  show StableHlo.after hostOps4 (W8 m ρ c) (Proc.devRef .tc main_arg9) = _
  after_results_simp <;> rfl

end Cert.KernelIdeal.Stretch

end
-- ==== Proof.KernelEmbed.lean ====
/-
  The first launch: the embedding, band of rows by band of rows.

  Each of the 25 grid points loads 2000 consecutive rows of the node features, the whole 128 × 128 weight and the
  bias row, and stores (rows · weight + bias) back over the same 2000 rows of the result. A row of the product depends
  only on the same row of the left factor, so what a point writes back is its band of the affine layer of the WHOLE
  arrays; the 25 bands tile the result, which therefore ends holding that layer.
-/
import proofs.«156105_j54795192762572_1_alg».proof.Proof.Gen.KernelIdeal.Frame
import proofs.«156105_j54795192762572_1_alg».proof.Proof.LibAffineRows

set_option maxRecDepth 16384

noncomputable section

namespace Cert.KernelIdeal.Embed

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibMatrixRows Cert.LibAffineRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic is the affine layer of its three loaded blocks (a change of float format is the identity). -/
theorem payload_eq (x : Vec Ideal S2000x128 .f32) (W : Vec Ideal S128x128 .f32) (b : Vec Ideal S1x128 .f32) :
    k0_pay1 x W b = affine (M := 2000) (K := 128) (N := 128) x W b := by
  unfold k0_pay1
  rw [shapeCast_self]
  exact vectorAffine_eq (M := 2000) (K := 128) (N := 128) x W b broadcasts_S1x128_S2000x128

/-- The printed index maps over the grid: the row-banded windows sit at band `t`, the resident ones at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 4000000 in
/-- What point `t` writes back is band `t` of the affine layer of the arrays the launch finds. -/
theorem flushed_eq (c : Dev nD) (t : Fin cfg0.N) :
    (dat0 V c).flushed 3 t = ((cfg0.win 3).blk t).view.read (Elt Ideal)
      (affine (M := 50000) (K := 128) (N := 128) (V c main_arg0) (V c main_arg3) (V c main_v0)) := by
  show (cfg0.win 3).cut (grid0.coords t) ((dat0 V c).after 3 t) = _
  rw [after0_3]
  unfold out0_3
  rw [View.canon_unit_zero origin]
  simp only [View.ld_unit_zero (S := S2000x128) origin, View.ld_unit_zero (S := S128x128) origin, View.ld_unit_zero (S := S1x128) origin]
  rw [payload_eq]
  obtain ⟨e00, e01, e10, e11, e20, e21, e30, e31⟩ := index_facts t
  funext j
  refine affine_block (M := 2000) (Q := 50000) (K := 128) (N := 128) (V c main_arg0) (V c main_arg3) (V c main_v0)
    (iblk0 V c 0 t) (iblk0 V c 1 t) (iblk0 V c 2 t) j (((cfg0.win 3).blk t).view.emb j) (fun k => ?_) ?_ ?_ ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (1 : Fin 2) * 128 + 1 * (j 1).val = (j 1).val
    omega

/-- An index of the result is in point `t`'s band iff each coordinate is in the band's range on its axis. -/
theorem mem_band (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- The 25 bands tile the result: row `r` is in band `r / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e00, e01, e10, e11, e20, e21, e30, e31⟩ := index_facts t
  have ht : t.val = (i 0).val / 2000 := rfl
  refine ⟨t, flush0_3 t, ?_⟩
  rw [mem_band]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the launch: the affine layer of the arrays the launch finds. -/
theorem final (c : Dev nD) :
    (dat0 V c).arrAt 3 cfg0.N = affine (M := 50000) (K := 128) (N := 128) (V c main_arg0) (V c main_arg3) (V c main_v0) :=
  (dat0 V c).arrAt_eq_of_cover 3 _ (fun t _ => flushed_eq V c t) cover

end Cert.KernelIdeal.Embed

end
-- ==== Proof.KernelLayer1.lean ====
/-
  The second launch: one graph layer's two-layer unit, band of rows by band of rows.

  Each of the 25 grid points loads 2000 consecutive rows of the hidden state h and of the neighbour sums g, and the
  two resident 128 × 128 weights with their bias rows, and stores max((h + g) · W₁ + b₁, 0) · W₂ + b₂ back over the
  same 2000 rows of the result. A row of that unit depends only on the same row of h and of g, so what a point writes
  back is its band of the unit of the WHOLE arrays; the 25 bands tile the result, which therefore ends holding it.
-/
import proofs.«156105_j54795192762572_1_alg».proof.Proof.Gen.KernelIdeal.Frame
import proofs.«156105_j54795192762572_1_alg».proof.Proof.LibAffineRows

set_option maxRecDepth 16384

noncomputable section

namespace Cert.KernelIdeal.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibMatrixRows Cert.LibAffineRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic is the rectified two-layer unit of its six loaded blocks (a change of float format, and a cast
    of a shape to itself, are the identity). -/
theorem payload_eq (h g : Vec Ideal S2000x128 .f32) (W₁ : Vec Ideal S128x128 .f32) (b₁ : Vec Ideal S1x128 .f32)
    (W₂ : Vec Ideal S128x128 .f32) (b₂ : Vec Ideal S1x128 .f32) :
    k1_pay1 h g W₁ b₁ W₂ b₂ = unit (M := 2000) (N := 128) (K := 128) (P := 128) g h W₁ b₁ W₂ b₂ := by
  unfold k1_pay1
  simp only [shapeCast_self]
  exact (vectorAffine_eq (M := 2000) (K := 128) (N := 128) _ W₂ b₂ broadcasts_S1x128_S2000x128).trans
    (congrArg (fun X => affine (M := 2000) (K := 128) (N := 128) X W₂ b₂)
      ((vectorRelu_eq (M := 2000) (N := 128) _).trans
        (congrArg (clampBelow (M := 2000) (N := 128) 0)
          (vectorAffine_eq (M := 2000) (K := 128) (N := 128) _ W₁ b₁ broadcasts_S1x128_S2000x128))))

/-! The printed index maps over the grid: the row-banded windows sit at band `t`, the resident ones at the origin. -/

theorem index_0 : ∀ t : Fin cfg1.N, win1_0.index t (0 : Fin 2) = t.val ∧ win1_0.index t (1 : Fin 2) = 0 :=
  (by decide +kernel : ∀ t : Fin grid1.N, _)
theorem index_1 : ∀ t : Fin cfg1.N, win1_1.index t (0 : Fin 2) = t.val ∧ win1_1.index t (1 : Fin 2) = 0 :=
  (by decide +kernel : ∀ t : Fin grid1.N, _)
theorem index_2 : ∀ t : Fin cfg1.N, win1_2.index t (0 : Fin 2) = 0 ∧ win1_2.index t (1 : Fin 2) = 0 :=
  (by decide +kernel : ∀ t : Fin grid1.N, _)
theorem index_3 : ∀ t : Fin cfg1.N, win1_3.index t (0 : Fin 2) = 0 ∧ win1_3.index t (1 : Fin 2) = 0 :=
  (by decide +kernel : ∀ t : Fin grid1.N, _)
theorem index_4 : ∀ t : Fin cfg1.N, win1_4.index t (0 : Fin 2) = 0 ∧ win1_4.index t (1 : Fin 2) = 0 :=
  (by decide +kernel : ∀ t : Fin grid1.N, _)
theorem index_5 : ∀ t : Fin cfg1.N, win1_5.index t (0 : Fin 2) = 0 ∧ win1_5.index t (1 : Fin 2) = 0 :=
  (by decide +kernel : ∀ t : Fin grid1.N, _)
theorem index_6 : ∀ t : Fin cfg1.N, win1_6.index t (0 : Fin 2) = t.val ∧ win1_6.index t (1 : Fin 2) = 0 :=
  (by decide +kernel : ∀ t : Fin grid1.N, _)

set_option maxHeartbeats 4000000 in
/-- What point `t` writes back is band `t` of the unit of the arrays the launch finds. -/
theorem flushed_eq (c : Dev nD) (t : Fin cfg1.N) :
    (dat1 V c).flushed 6 t = ((cfg1.win 6).blk t).view.read (Elt Ideal)
      (unit (M := 50000) (N := 128) (K := 128) (P := 128) (V c main_v15) (V c main_v1) (V c main_v17) (V c main_v24) (V c main_v21) (V c main_v25)) := by
  show (cfg1.win 6).cut (grid1.coords t) ((dat1 V c).after 6 t) = _
  rw [after1_6]
  unfold out1_6
  rw [View.canon_unit_zero origin]
  simp only [View.ld_unit_zero (S := S2000x128) origin, View.ld_unit_zero (S := S128x128) origin, View.ld_unit_zero (S := S1x128) origin]
  rw [payload_eq]
  funext j
  refine unit_block (M := 2000) (Q := 50000) (N := 128) (K := 128) (P := 128)
    (V c main_v15) (V c main_v1) (V c main_v17) (V c main_v24) (V c main_v21) (V c main_v25)
    (iblk1 V c 1 t) (iblk1 V c 0 t) (iblk1 V c 2 t) (iblk1 V c 3 t) (iblk1 V c 4 t) (iblk1 V c 5 t)
    j (((cfg1.win 6).blk t).view.emb j) (fun k => ?_) (fun k => ?_) ?_ ?_ ?_ ?_ ?_
  · show V c main_v15 (((cfg1.win 1).blk t).view.emb (ix2 (j 0) k)) = V c main_v15 (ix2 ((((cfg1.win 6).blk t).view.emb j) 0) k)
    obtain ⟨h0, h1⟩ := index_1 t
    obtain ⟨g0, g1⟩ := index_6 t
    refine congrArg (V c main_v15) (funext fun a => Fin.ext ?_)
    match a with
    | ⟨0, _⟩ => show win1_1.index t (0 : Fin 2) * 2000 + 1 * (j 0).val = win1_6.index t (0 : Fin 2) * 2000 + 1 * (j 0).val; rw [h0, g0]
    | ⟨1, _⟩ => show win1_1.index t (1 : Fin 2) * 128 + 1 * k.val = k.val; rw [h1, Nat.zero_mul, Nat.zero_add, Nat.one_mul]
  · show V c main_v1 (((cfg1.win 0).blk t).view.emb (ix2 (j 0) k)) = V c main_v1 (ix2 ((((cfg1.win 6).blk t).view.emb j) 0) k)
    obtain ⟨h0, h1⟩ := index_0 t
    obtain ⟨g0, g1⟩ := index_6 t
    refine congrArg (V c main_v1) (funext fun a => Fin.ext ?_)
    match a with
    | ⟨0, _⟩ => show win1_0.index t (0 : Fin 2) * 2000 + 1 * (j 0).val = win1_6.index t (0 : Fin 2) * 2000 + 1 * (j 0).val; rw [h0, g0]
    | ⟨1, _⟩ => show win1_0.index t (1 : Fin 2) * 128 + 1 * k.val = k.val; rw [h1, Nat.zero_mul, Nat.zero_add, Nat.one_mul]
  · funext y
    show V c main_v17 (((cfg1.win 2).blk t).view.emb y) = V c main_v17 y
    obtain ⟨h0, h1⟩ := index_2 t
    refine congrArg (V c main_v17) (funext fun a => Fin.ext ?_)
    match a with
    | ⟨0, _⟩ => show win1_2.index t (0 : Fin 2) * 128 + 1 * (y 0).val = (y 0).val; rw [h0, Nat.zero_mul, Nat.zero_add, Nat.one_mul]
    | ⟨1, _⟩ => show win1_2.index t (1 : Fin 2) * 128 + 1 * (y 1).val = (y 1).val; rw [h1, Nat.zero_mul, Nat.zero_add, Nat.one_mul]
  · funext y
    show V c main_v24 (((cfg1.win 3).blk t).view.emb y) = V c main_v24 y
    obtain ⟨h0, h1⟩ := index_3 t
    refine congrArg (V c main_v24) (funext fun a => Fin.ext ?_)
    match a with
    | ⟨0, _⟩ => show win1_3.index t (0 : Fin 2) * 1 + 1 * (y 0).val = (y 0).val; rw [h0, Nat.zero_mul, Nat.zero_add, Nat.one_mul]
    | ⟨1, _⟩ => show win1_3.index t (1 : Fin 2) * 128 + 1 * (y 1).val = (y 1).val; rw [h1, Nat.zero_mul, Nat.zero_add, Nat.one_mul]
  · funext y
    show V c main_v21 (((cfg1.win 4).blk t).view.emb y) = V c main_v21 y
    obtain ⟨h0, h1⟩ := index_4 t
    refine congrArg (V c main_v21) (funext fun a => Fin.ext ?_)
    match a with
    | ⟨0, _⟩ => show win1_4.index t (0 : Fin 2) * 128 + 1 * (y 0).val = (y 0).val; rw [h0, Nat.zero_mul, Nat.zero_add, Nat.one_mul]
    | ⟨1, _⟩ => show win1_4.index t (1 : Fin 2) * 128 + 1 * (y 1).val = (y 1).val; rw [h1, Nat.zero_mul, Nat.zero_add, Nat.one_mul]
  · funext y
    show V c main_v25 (((cfg1.win 5).blk t).view.emb y) = V c main_v25 y
    obtain ⟨h0, h1⟩ := index_5 t
    refine congrArg (V c main_v25) (funext fun a => Fin.ext ?_)
    match a with
    | ⟨0, _⟩ => show win1_5.index t (0 : Fin 2) * 1 + 1 * (y 0).val = (y 0).val; rw [h0, Nat.zero_mul, Nat.zero_add, Nat.one_mul]
    | ⟨1, _⟩ => show win1_5.index t (1 : Fin 2) * 128 + 1 * (y 1).val = (y 1).val; rw [h1, Nat.zero_mul, Nat.zero_add, Nat.one_mul]
  · show win1_6.index t (1 : Fin 2) * 128 + 1 * (j 1).val = (j 1).val
    rw [(index_6 t).2, Nat.zero_mul, Nat.zero_add, Nat.one_mul]

/-- An index of the result is in point `t`'s band iff each coordinate is in the band's range on its axis. -/
theorem mem_band6 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v26).slice (win1_6.rect t)).set ↔ _
  rw [View.set_slice_whole, Rect.mem_set_unit]
  exact Iff.rfl

/-- The 25 bands tile the result: row `r` is in band `r / 2000`. -/
theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1⟩ := index_6 t
  have ht : t.val = (i 0).val / 2000 := rfl
  refine ⟨t, flush1_6 t, ?_⟩
  rw [mem_band6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array after the launch: the unit of the arrays the launch finds. -/
theorem final (c : Dev nD) :
    (dat1 V c).arrAt 6 cfg1.N = unit (M := 50000) (N := 128) (K := 128) (P := 128) (V c main_v15) (V c main_v1) (V c main_v17) (V c main_v24) (V c main_v21) (V c main_v25) :=
  (dat1 V c).arrAt_eq_of_cover 6 _ (fun t _ => flushed_eq V c t) cover6

end Cert.KernelIdeal.Layer1

end
-- ==== Proof.KernelLayer2.lean ====
/-
  The third launch: one graph layer's two-layer unit, band of rows by band of rows.

  Each of the 25 grid points loads 2000 consecutive rows of the hidden state h and of the neighbour sums g, and the
  two resident 128 × 128 weights with their bias rows, and stores max((h + g) · W₁ + b₁, 0) · W₂ + b₂ back over the
  same 2000 rows of the result. A row of that unit depends only on the same row of h and of g, so what a point writes
  back is its band of the unit of the WHOLE arrays; the 25 bands tile the result, which therefore ends holding it.
-/
import proofs.«156105_j54795192762572_1_alg».proof.Proof.Gen.KernelIdeal.Frame
import proofs.«156105_j54795192762572_1_alg».proof.Proof.LibAffineRows

set_option maxRecDepth 16384

noncomputable section

namespace Cert.KernelIdeal.Layer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibMatrixRows Cert.LibAffineRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic is the rectified two-layer unit of its six loaded blocks (a change of float format, and a cast
    of a shape to itself, are the identity). -/
theorem payload_eq (h g : Vec Ideal S2000x128 .f32) (W₁ : Vec Ideal S128x128 .f32) (b₁ : Vec Ideal S1x128 .f32)
    (W₂ : Vec Ideal S128x128 .f32) (b₂ : Vec Ideal S1x128 .f32) :
    k2_pay1 h g W₁ b₁ W₂ b₂ = unit (M := 2000) (N := 128) (K := 128) (P := 128) g h W₁ b₁ W₂ b₂ := by
  unfold k2_pay1
  simp only [shapeCast_self]
  exact (vectorAffine_eq (M := 2000) (K := 128) (N := 128) _ W₂ b₂ broadcasts_S1x128_S2000x128).trans
    (congrArg (fun X => affine (M := 2000) (K := 128) (N := 128) X W₂ b₂)
      ((vectorRelu_eq (M := 2000) (N := 128) _).trans
        (congrArg (clampBelow (M := 2000) (N := 128) 0)
          (vectorAffine_eq (M := 2000) (K := 128) (N := 128) _ W₁ b₁ broadcasts_S1x128_S2000x128))))

/-! The printed index maps over the grid: the row-banded windows sit at band `t`, the resident ones at the origin. -/

theorem index_0 : ∀ t : Fin cfg2.N, win2_0.index t (0 : Fin 2) = t.val ∧ win2_0.index t (1 : Fin 2) = 0 :=
  (by decide +kernel : ∀ t : Fin grid2.N, _)
theorem index_1 : ∀ t : Fin cfg2.N, win2_1.index t (0 : Fin 2) = t.val ∧ win2_1.index t (1 : Fin 2) = 0 :=
  (by decide +kernel : ∀ t : Fin grid2.N, _)
theorem index_2 : ∀ t : Fin cfg2.N, win2_2.index t (0 : Fin 2) = 0 ∧ win2_2.index t (1 : Fin 2) = 0 :=
  (by decide +kernel : ∀ t : Fin grid2.N, _)
theorem index_3 : ∀ t : Fin cfg2.N, win2_3.index t (0 : Fin 2) = 0 ∧ win2_3.index t (1 : Fin 2) = 0 :=
  (by decide +kernel : ∀ t : Fin grid2.N, _)
theorem index_4 : ∀ t : Fin cfg2.N, win2_4.index t (0 : Fin 2) = 0 ∧ win2_4.index t (1 : Fin 2) = 0 :=
  (by decide +kernel : ∀ t : Fin grid2.N, _)
theorem index_5 : ∀ t : Fin cfg2.N, win2_5.index t (0 : Fin 2) = 0 ∧ win2_5.index t (1 : Fin 2) = 0 :=
  (by decide +kernel : ∀ t : Fin grid2.N, _)
theorem index_6 : ∀ t : Fin cfg2.N, win2_6.index t (0 : Fin 2) = t.val ∧ win2_6.index t (1 : Fin 2) = 0 :=
  (by decide +kernel : ∀ t : Fin grid2.N, _)

set_option maxHeartbeats 4000000 in
/-- What point `t` writes back is band `t` of the unit of the arrays the launch finds. -/
theorem flushed_eq (c : Dev nD) (t : Fin cfg2.N) :
    (dat2 V c).flushed 6 t = ((cfg2.win 6).blk t).view.read (Elt Ideal)
      (unit (M := 50000) (N := 128) (K := 128) (P := 128) (V c main_v36) (V c main_v26) (V c main_v38) (V c main_v45) (V c main_v42) (V c main_v46)) := by
  show (cfg2.win 6).cut (grid2.coords t) ((dat2 V c).after 6 t) = _
  rw [after2_6]
  unfold out2_6
  rw [View.canon_unit_zero origin]
  simp only [View.ld_unit_zero (S := S2000x128) origin, View.ld_unit_zero (S := S128x128) origin, View.ld_unit_zero (S := S1x128) origin]
  rw [payload_eq]
  funext j
  refine unit_block (M := 2000) (Q := 50000) (N := 128) (K := 128) (P := 128)
    (V c main_v36) (V c main_v26) (V c main_v38) (V c main_v45) (V c main_v42) (V c main_v46)
    (iblk2 V c 1 t) (iblk2 V c 0 t) (iblk2 V c 2 t) (iblk2 V c 3 t) (iblk2 V c 4 t) (iblk2 V c 5 t)
    j (((cfg2.win 6).blk t).view.emb j) (fun k => ?_) (fun k => ?_) ?_ ?_ ?_ ?_ ?_
  · show V c main_v36 (((cfg2.win 1).blk t).view.emb (ix2 (j 0) k)) = V c main_v36 (ix2 ((((cfg2.win 6).blk t).view.emb j) 0) k)
    obtain ⟨h0, h1⟩ := index_1 t
    obtain ⟨g0, g1⟩ := index_6 t
    refine congrArg (V c main_v36) (funext fun a => Fin.ext ?_)
    match a with
    | ⟨0, _⟩ => show win2_1.index t (0 : Fin 2) * 2000 + 1 * (j 0).val = win2_6.index t (0 : Fin 2) * 2000 + 1 * (j 0).val; rw [h0, g0]
    | ⟨1, _⟩ => show win2_1.index t (1 : Fin 2) * 128 + 1 * k.val = k.val; rw [h1, Nat.zero_mul, Nat.zero_add, Nat.one_mul]
  · show V c main_v26 (((cfg2.win 0).blk t).view.emb (ix2 (j 0) k)) = V c main_v26 (ix2 ((((cfg2.win 6).blk t).view.emb j) 0) k)
    obtain ⟨h0, h1⟩ := index_0 t
    obtain ⟨g0, g1⟩ := index_6 t
    refine congrArg (V c main_v26) (funext fun a => Fin.ext ?_)
    match a with
    | ⟨0, _⟩ => show win2_0.index t (0 : Fin 2) * 2000 + 1 * (j 0).val = win2_6.index t (0 : Fin 2) * 2000 + 1 * (j 0).val; rw [h0, g0]
    | ⟨1, _⟩ => show win2_0.index t (1 : Fin 2) * 128 + 1 * k.val = k.val; rw [h1, Nat.zero_mul, Nat.zero_add, Nat.one_mul]
  · funext y
    show V c main_v38 (((cfg2.win 2).blk t).view.emb y) = V c main_v38 y
    obtain ⟨h0, h1⟩ := index_2 t
    refine congrArg (V c main_v38) (funext fun a => Fin.ext ?_)
    match a with
    | ⟨0, _⟩ => show win2_2.index t (0 : Fin 2) * 128 + 1 * (y 0).val = (y 0).val; rw [h0, Nat.zero_mul, Nat.zero_add, Nat.one_mul]
    | ⟨1, _⟩ => show win2_2.index t (1 : Fin 2) * 128 + 1 * (y 1).val = (y 1).val; rw [h1, Nat.zero_mul, Nat.zero_add, Nat.one_mul]
  · funext y
    show V c main_v45 (((cfg2.win 3).blk t).view.emb y) = V c main_v45 y
    obtain ⟨h0, h1⟩ := index_3 t
    refine congrArg (V c main_v45) (funext fun a => Fin.ext ?_)
    match a with
    | ⟨0, _⟩ => show win2_3.index t (0 : Fin 2) * 1 + 1 * (y 0).val = (y 0).val; rw [h0, Nat.zero_mul, Nat.zero_add, Nat.one_mul]
    | ⟨1, _⟩ => show win2_3.index t (1 : Fin 2) * 128 + 1 * (y 1).val = (y 1).val; rw [h1, Nat.zero_mul, Nat.zero_add, Nat.one_mul]
  · funext y
    show V c main_v42 (((cfg2.win 4).blk t).view.emb y) = V c main_v42 y
    obtain ⟨h0, h1⟩ := index_4 t
    refine congrArg (V c main_v42) (funext fun a => Fin.ext ?_)
    match a with
    | ⟨0, _⟩ => show win2_4.index t (0 : Fin 2) * 128 + 1 * (y 0).val = (y 0).val; rw [h0, Nat.zero_mul, Nat.zero_add, Nat.one_mul]
    | ⟨1, _⟩ => show win2_4.index t (1 : Fin 2) * 128 + 1 * (y 1).val = (y 1).val; rw [h1, Nat.zero_mul, Nat.zero_add, Nat.one_mul]
  · funext y
    show V c main_v46 (((cfg2.win 5).blk t).view.emb y) = V c main_v46 y
    obtain ⟨h0, h1⟩ := index_5 t
    refine congrArg (V c main_v46) (funext fun a => Fin.ext ?_)
    match a with
    | ⟨0, _⟩ => show win2_5.index t (0 : Fin 2) * 1 + 1 * (y 0).val = (y 0).val; rw [h0, Nat.zero_mul, Nat.zero_add, Nat.one_mul]
    | ⟨1, _⟩ => show win2_5.index t (1 : Fin 2) * 128 + 1 * (y 1).val = (y 1).val; rw [h1, Nat.zero_mul, Nat.zero_add, Nat.one_mul]
  · show win2_6.index t (1 : Fin 2) * 128 + 1 * (j 1).val = (j 1).val
    rw [(index_6 t).2, Nat.zero_mul, Nat.zero_add, Nat.one_mul]

/-- An index of the result is in point `t`'s band iff each coordinate is in the band's range on its axis. -/
theorem mem_band6 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v47).slice (win2_6.rect t)).set ↔ _
  rw [View.set_slice_whole, Rect.mem_set_unit]
  exact Iff.rfl

/-- The 25 bands tile the result: row `r` is in band `r / 2000`. -/
theorem cover6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1⟩ := index_6 t
  have ht : t.val = (i 0).val / 2000 := rfl
  refine ⟨t, flush2_6 t, ?_⟩
  rw [mem_band6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The result array after the launch: the unit of the arrays the launch finds. -/
theorem final (c : Dev nD) :
    (dat2 V c).arrAt 6 cfg2.N = unit (M := 50000) (N := 128) (K := 128) (P := 128) (V c main_v36) (V c main_v26) (V c main_v38) (V c main_v45) (V c main_v42) (V c main_v46) :=
  (dat2 V c).arrAt_eq_of_cover 6 _ (fun t _ => flushed_eq V c t) cover6

end Cert.KernelIdeal.Layer2

end
-- ==== Proof.KernelLayer3.lean ====
/-
  The fourth launch: one graph layer's two-layer unit, band of rows by band of rows.

  Each of the 25 grid points loads 2000 consecutive rows of the hidden state h and of the neighbour sums g, and the
  two resident 128 × 128 weights with their bias rows, and stores max((h + g) · W₁ + b₁, 0) · W₂ + b₂ back over the
  same 2000 rows of the result. A row of that unit depends only on the same row of h and of g, so what a point writes
  back is its band of the unit of the WHOLE arrays; the 25 bands tile the result, which therefore ends holding it.
-/
import proofs.«156105_j54795192762572_1_alg».proof.Proof.Gen.KernelIdeal.Frame
import proofs.«156105_j54795192762572_1_alg».proof.Proof.LibAffineRows

set_option maxRecDepth 16384

noncomputable section

namespace Cert.KernelIdeal.Layer3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibMatrixRows Cert.LibAffineRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic is the rectified two-layer unit of its six loaded blocks (a change of float format, and a cast
    of a shape to itself, are the identity). -/
theorem payload_eq (h g : Vec Ideal S2000x128 .f32) (W₁ : Vec Ideal S128x128 .f32) (b₁ : Vec Ideal S1x128 .f32)
    (W₂ : Vec Ideal S128x128 .f32) (b₂ : Vec Ideal S1x128 .f32) :
    k3_pay1 h g W₁ b₁ W₂ b₂ = unit (M := 2000) (N := 128) (K := 128) (P := 128) g h W₁ b₁ W₂ b₂ := by
  unfold k3_pay1
  simp only [shapeCast_self]
  exact (vectorAffine_eq (M := 2000) (K := 128) (N := 128) _ W₂ b₂ broadcasts_S1x128_S2000x128).trans
    (congrArg (fun X => affine (M := 2000) (K := 128) (N := 128) X W₂ b₂)
      ((vectorRelu_eq (M := 2000) (N := 128) _).trans
        (congrArg (clampBelow (M := 2000) (N := 128) 0)
          (vectorAffine_eq (M := 2000) (K := 128) (N := 128) _ W₁ b₁ broadcasts_S1x128_S2000x128))))

/-! The printed index maps over the grid: the row-banded windows sit at band `t`, the resident ones at the origin. -/

theorem index_0 : ∀ t : Fin cfg3.N, win3_0.index t (0 : Fin 2) = t.val ∧ win3_0.index t (1 : Fin 2) = 0 :=
  (by decide +kernel : ∀ t : Fin grid3.N, _)
theorem index_1 : ∀ t : Fin cfg3.N, win3_1.index t (0 : Fin 2) = t.val ∧ win3_1.index t (1 : Fin 2) = 0 :=
  (by decide +kernel : ∀ t : Fin grid3.N, _)
theorem index_2 : ∀ t : Fin cfg3.N, win3_2.index t (0 : Fin 2) = 0 ∧ win3_2.index t (1 : Fin 2) = 0 :=
  (by decide +kernel : ∀ t : Fin grid3.N, _)
theorem index_3 : ∀ t : Fin cfg3.N, win3_3.index t (0 : Fin 2) = 0 ∧ win3_3.index t (1 : Fin 2) = 0 :=
  (by decide +kernel : ∀ t : Fin grid3.N, _)
theorem index_4 : ∀ t : Fin cfg3.N, win3_4.index t (0 : Fin 2) = 0 ∧ win3_4.index t (1 : Fin 2) = 0 :=
  (by decide +kernel : ∀ t : Fin grid3.N, _)
theorem index_5 : ∀ t : Fin cfg3.N, win3_5.index t (0 : Fin 2) = 0 ∧ win3_5.index t (1 : Fin 2) = 0 :=
  (by decide +kernel : ∀ t : Fin grid3.N, _)
theorem index_6 : ∀ t : Fin cfg3.N, win3_6.index t (0 : Fin 2) = t.val ∧ win3_6.index t (1 : Fin 2) = 0 :=
  (by decide +kernel : ∀ t : Fin grid3.N, _)

set_option maxHeartbeats 4000000 in
/-- What point `t` writes back is band `t` of the unit of the arrays the launch finds. -/
theorem flushed_eq (c : Dev nD) (t : Fin cfg3.N) :
    (dat3 V c).flushed 6 t = ((cfg3.win 6).blk t).view.read (Elt Ideal)
      (unit (M := 50000) (N := 128) (K := 128) (P := 128) (V c main_v57) (V c main_v47) (V c main_v59) (V c main_v66) (V c main_v63) (V c main_v67)) := by
  show (cfg3.win 6).cut (grid3.coords t) ((dat3 V c).after 6 t) = _
  rw [after3_6]
  unfold out3_6
  rw [View.canon_unit_zero origin]
  simp only [View.ld_unit_zero (S := S2000x128) origin, View.ld_unit_zero (S := S128x128) origin, View.ld_unit_zero (S := S1x128) origin]
  rw [payload_eq]
  funext j
  refine unit_block (M := 2000) (Q := 50000) (N := 128) (K := 128) (P := 128)
    (V c main_v57) (V c main_v47) (V c main_v59) (V c main_v66) (V c main_v63) (V c main_v67)
    (iblk3 V c 1 t) (iblk3 V c 0 t) (iblk3 V c 2 t) (iblk3 V c 3 t) (iblk3 V c 4 t) (iblk3 V c 5 t)
    j (((cfg3.win 6).blk t).view.emb j) (fun k => ?_) (fun k => ?_) ?_ ?_ ?_ ?_ ?_
  · show V c main_v57 (((cfg3.win 1).blk t).view.emb (ix2 (j 0) k)) = V c main_v57 (ix2 ((((cfg3.win 6).blk t).view.emb j) 0) k)
    obtain ⟨h0, h1⟩ := index_1 t
    obtain ⟨g0, g1⟩ := index_6 t
    refine congrArg (V c main_v57) (funext fun a => Fin.ext ?_)
    match a with
    | ⟨0, _⟩ => show win3_1.index t (0 : Fin 2) * 2000 + 1 * (j 0).val = win3_6.index t (0 : Fin 2) * 2000 + 1 * (j 0).val; rw [h0, g0]
    | ⟨1, _⟩ => show win3_1.index t (1 : Fin 2) * 128 + 1 * k.val = k.val; rw [h1, Nat.zero_mul, Nat.zero_add, Nat.one_mul]
  · show V c main_v47 (((cfg3.win 0).blk t).view.emb (ix2 (j 0) k)) = V c main_v47 (ix2 ((((cfg3.win 6).blk t).view.emb j) 0) k)
    obtain ⟨h0, h1⟩ := index_0 t
    obtain ⟨g0, g1⟩ := index_6 t
    refine congrArg (V c main_v47) (funext fun a => Fin.ext ?_)
    match a with
    | ⟨0, _⟩ => show win3_0.index t (0 : Fin 2) * 2000 + 1 * (j 0).val = win3_6.index t (0 : Fin 2) * 2000 + 1 * (j 0).val; rw [h0, g0]
    | ⟨1, _⟩ => show win3_0.index t (1 : Fin 2) * 128 + 1 * k.val = k.val; rw [h1, Nat.zero_mul, Nat.zero_add, Nat.one_mul]
  · funext y
    show V c main_v59 (((cfg3.win 2).blk t).view.emb y) = V c main_v59 y
    obtain ⟨h0, h1⟩ := index_2 t
    refine congrArg (V c main_v59) (funext fun a => Fin.ext ?_)
    match a with
    | ⟨0, _⟩ => show win3_2.index t (0 : Fin 2) * 128 + 1 * (y 0).val = (y 0).val; rw [h0, Nat.zero_mul, Nat.zero_add, Nat.one_mul]
    | ⟨1, _⟩ => show win3_2.index t (1 : Fin 2) * 128 + 1 * (y 1).val = (y 1).val; rw [h1, Nat.zero_mul, Nat.zero_add, Nat.one_mul]
  · funext y
    show V c main_v66 (((cfg3.win 3).blk t).view.emb y) = V c main_v66 y
    obtain ⟨h0, h1⟩ := index_3 t
    refine congrArg (V c main_v66) (funext fun a => Fin.ext ?_)
    match a with
    | ⟨0, _⟩ => show win3_3.index t (0 : Fin 2) * 1 + 1 * (y 0).val = (y 0).val; rw [h0, Nat.zero_mul, Nat.zero_add, Nat.one_mul]
    | ⟨1, _⟩ => show win3_3.index t (1 : Fin 2) * 128 + 1 * (y 1).val = (y 1).val; rw [h1, Nat.zero_mul, Nat.zero_add, Nat.one_mul]
  · funext y
    show V c main_v63 (((cfg3.win 4).blk t).view.emb y) = V c main_v63 y
    obtain ⟨h0, h1⟩ := index_4 t
    refine congrArg (V c main_v63) (funext fun a => Fin.ext ?_)
    match a with
    | ⟨0, _⟩ => show win3_4.index t (0 : Fin 2) * 128 + 1 * (y 0).val = (y 0).val; rw [h0, Nat.zero_mul, Nat.zero_add, Nat.one_mul]
    | ⟨1, _⟩ => show win3_4.index t (1 : Fin 2) * 128 + 1 * (y 1).val = (y 1).val; rw [h1, Nat.zero_mul, Nat.zero_add, Nat.one_mul]
  · funext y
    show V c main_v67 (((cfg3.win 5).blk t).view.emb y) = V c main_v67 y
    obtain ⟨h0, h1⟩ := index_5 t
    refine congrArg (V c main_v67) (funext fun a => Fin.ext ?_)
    match a with
    | ⟨0, _⟩ => show win3_5.index t (0 : Fin 2) * 1 + 1 * (y 0).val = (y 0).val; rw [h0, Nat.zero_mul, Nat.zero_add, Nat.one_mul]
    | ⟨1, _⟩ => show win3_5.index t (1 : Fin 2) * 128 + 1 * (y 1).val = (y 1).val; rw [h1, Nat.zero_mul, Nat.zero_add, Nat.one_mul]
  · show win3_6.index t (1 : Fin 2) * 128 + 1 * (j 1).val = (j 1).val
    rw [(index_6 t).2, Nat.zero_mul, Nat.zero_add, Nat.one_mul]

/-- An index of the result is in point `t`'s band iff each coordinate is in the band's range on its axis. -/
theorem mem_band6 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v68).slice (win3_6.rect t)).set ↔ _
  rw [View.set_slice_whole, Rect.mem_set_unit]
  exact Iff.rfl

/-- The 25 bands tile the result: row `r` is in band `r / 2000`. -/
theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e0, e1⟩ := index_6 t
  have ht : t.val = (i 0).val / 2000 := rfl
  refine ⟨t, flush3_6 t, ?_⟩
  rw [mem_band6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- The result array after the launch: the unit of the arrays the launch finds. -/
theorem final (c : Dev nD) :
    (dat3 V c).arrAt 6 cfg3.N = unit (M := 50000) (N := 128) (K := 128) (P := 128) (V c main_v57) (V c main_v47) (V c main_v59) (V c main_v66) (V c main_v63) (V c main_v67) :=
  (dat3 V c).arrAt_eq_of_cover 6 _ (fun t _ => flushed_eq V c t) cover6

end Cert.KernelIdeal.Layer3

end
-- ==== Proof.KernelLast.lean ====
/-
  The fifth launch: the last graph layer's two-layer unit and the read-out, band of rows by band of rows.

  Each of the 25 grid points loads 2000 consecutive rows of the hidden state h and of the neighbour sums g, the two
  resident 128 × 128 weights with their bias rows, the 128 × 1 read-out weight and its 1 × 1 offset; it stores
  u = max((h + g) · W₁ + b₁, 0) · W₂ + b₂ over the same 2000 rows of the new hidden state, and u · w + o over the same
  2000 rows of the one-column logits. Both depend, row by row, only on the same row of h and of g, so what a point
  writes back is its band of the unit (and of the read-out of the unit) of the WHOLE arrays; the bands tile both results.
-/
import proofs.«156105_j54795192762572_1_alg».proof.Proof.Gen.KernelIdeal.Frame
import proofs.«156105_j54795192762572_1_alg».proof.Proof.LibAffineRows

set_option maxRecDepth 16384

noncomputable section

namespace Cert.KernelIdeal.Last

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibMatrixRows Cert.LibAffineRows

variable (V : (c : Dev nD) → (b : Ref sig .tc) → Buf (Elt Ideal) ((c : Thread nD τ).loc b))

theorem origin : (![0, 0] : Fin 2 → Nat) = fun _ => 0 := funext fun a => by fin_cases a <;> rfl

/-- The body's arithmetic is the rectified two-layer unit of its six loaded blocks (a change of float format, and a cast
    of a shape to itself, are the identity). -/
theorem payload_eq (h g : Vec Ideal S2000x128 .f32) (W₁ : Vec Ideal S128x128 .f32) (b₁ : Vec Ideal S1x128 .f32)
    (W₂ : Vec Ideal S128x128 .f32) (b₂ : Vec Ideal S1x128 .f32) :
    k4_pay1 h g W₁ b₁ W₂ b₂ = unit (M := 2000) (N := 128) (K := 128) (P := 128) g h W₁ b₁ W₂ b₂ := by
  unfold k4_pay1
  simp only [shapeCast_self]
  exact (vectorAffine_eq (M := 2000) (K := 128) (N := 128) _ W₂ b₂ broadcasts_S1x128_S2000x128).trans
    (congrArg (fun X => affine (M := 2000) (K := 128) (N := 128) X W₂ b₂)
      ((vectorRelu_eq (M := 2000) (N := 128) _).trans
        (congrArg (clampBelow (M := 2000) (N := 128) 0)
          (vectorAffine_eq (M := 2000) (K := 128) (N := 128) _ W₁ b₁ broadcasts_S1x128_S2000x128))))

/-- The second store's arithmetic is the read-out (an affine layer with one output column) of that unit. -/
theorem readout_payload_eq (h g : Vec Ideal S2000x128 .f32) (W₁ : Vec Ideal S128x128 .f32) (b₁ : Vec Ideal S1x128 .f32)
    (W₂ : Vec Ideal S128x128 .f32) (b₂ : Vec Ideal S1x128 .f32) (w : Vec Ideal S128x1 .f32) (o : Vec Ideal S1x1 .f32) :
    k4_pay2 h g W₁ b₁ W₂ b₂ w o
      = affine (M := 2000) (K := 128) (N := 1) (unit (M := 2000) (N := 128) (K := 128) (P := 128) g h W₁ b₁ W₂ b₂) w o := by
  unfold k4_pay2
  rw [payload_eq]
  simp only [shapeCast_self]
  exact vectorAffine_eq (M := 2000) (K := 128) (N := 1) _ w o broadcasts_S1x1_S2000x1

/-! The printed index maps over the grid: the row-banded windows sit at band `t`, the resident ones at the origin. -/

theorem index_0 : ∀ t : Fin cfg4.N, win4_0.index t (0 : Fin 2) = t.val ∧ win4_0.index t (1 : Fin 2) = 0 :=
  (by decide +kernel : ∀ t : Fin grid4.N, _)
theorem index_1 : ∀ t : Fin cfg4.N, win4_1.index t (0 : Fin 2) = t.val ∧ win4_1.index t (1 : Fin 2) = 0 :=
  (by decide +kernel : ∀ t : Fin grid4.N, _)
theorem index_2 : ∀ t : Fin cfg4.N, win4_2.index t (0 : Fin 2) = 0 ∧ win4_2.index t (1 : Fin 2) = 0 :=
  (by decide +kernel : ∀ t : Fin grid4.N, _)
theorem index_3 : ∀ t : Fin cfg4.N, win4_3.index t (0 : Fin 2) = 0 ∧ win4_3.index t (1 : Fin 2) = 0 :=
  (by decide +kernel : ∀ t : Fin grid4.N, _)
theorem index_4 : ∀ t : Fin cfg4.N, win4_4.index t (0 : Fin 2) = 0 ∧ win4_4.index t (1 : Fin 2) = 0 :=
  (by decide +kernel : ∀ t : Fin grid4.N, _)
theorem index_5 : ∀ t : Fin cfg4.N, win4_5.index t (0 : Fin 2) = 0 ∧ win4_5.index t (1 : Fin 2) = 0 :=
  (by decide +kernel : ∀ t : Fin grid4.N, _)
theorem index_6 : ∀ t : Fin cfg4.N, win4_6.index t (0 : Fin 2) = 0 ∧ win4_6.index t (1 : Fin 2) = 0 :=
  (by decide +kernel : ∀ t : Fin grid4.N, _)
theorem index_7 : ∀ t : Fin cfg4.N, win4_7.index t (0 : Fin 2) = 0 ∧ win4_7.index t (1 : Fin 2) = 0 :=
  (by decide +kernel : ∀ t : Fin grid4.N, _)
theorem index_8 : ∀ t : Fin cfg4.N, win4_8.index t (0 : Fin 2) = t.val ∧ win4_8.index t (1 : Fin 2) = 0 :=
  (by decide +kernel : ∀ t : Fin grid4.N, _)
theorem index_9 : ∀ t : Fin cfg4.N, win4_9.index t (0 : Fin 2) = t.val ∧ win4_9.index t (1 : Fin 2) = 0 :=
  (by decide +kernel : ∀ t : Fin grid4.N, _)

set_option maxHeartbeats 4000000 in
/-- What point `t` writes back to the hidden state is band `t` of the unit of the arrays the launch finds. -/
theorem flushed8_eq (c : Dev nD) (t : Fin cfg4.N) :
    (dat4 V c).flushed 8 t = ((cfg4.win 8).blk t).view.read (Elt Ideal) (unit (M := 50000) (N := 128) (K := 128) (P := 128) (V c main_v78) (V c main_v68) (V c main_v80) (V c main_v87) (V c main_v84) (V c main_v88)) := by
  show (cfg4.win 8).cut (grid4.coords t) ((dat4 V c).after 8 t) = _
  rw [after4_8]
  unfold out4_8
  rw [View.canon_unit_zero origin]
  simp only [View.ld_unit_zero (S := S2000x128) origin, View.ld_unit_zero (S := S128x128) origin, View.ld_unit_zero (S := S1x128) origin]
  rw [payload_eq]
  funext j
  refine unit_block (M := 2000) (Q := 50000) (N := 128) (K := 128) (P := 128)
    (V c main_v78) (V c main_v68) (V c main_v80) (V c main_v87) (V c main_v84) (V c main_v88)
    (iblk4 V c 1 t) (iblk4 V c 0 t) (iblk4 V c 2 t) (iblk4 V c 3 t) (iblk4 V c 4 t) (iblk4 V c 5 t)
    j (((cfg4.win 8).blk t).view.emb j) (fun k => ?_) (fun k => ?_) ?_ ?_ ?_ ?_ ?_
  · show V c main_v78 (((cfg4.win 1).blk t).view.emb (ix2 (j 0) k)) = V c main_v78 (ix2 ((((cfg4.win 8).blk t).view.emb j) 0) k)
    obtain ⟨h0, h1⟩ := index_1 t
    obtain ⟨g0, g1⟩ := index_8 t
    refine congrArg (V c main_v78) (funext fun a => Fin.ext ?_)
    match a with
    | ⟨0, _⟩ => show win4_1.index t (0 : Fin 2) * 2000 + 1 * (j 0).val = win4_8.index t (0 : Fin 2) * 2000 + 1 * (j 0).val; rw [h0, g0]
    | ⟨1, _⟩ => show win4_1.index t (1 : Fin 2) * 128 + 1 * k.val = k.val; rw [h1, Nat.zero_mul, Nat.zero_add, Nat.one_mul]
  · show V c main_v68 (((cfg4.win 0).blk t).view.emb (ix2 (j 0) k)) = V c main_v68 (ix2 ((((cfg4.win 8).blk t).view.emb j) 0) k)
    obtain ⟨h0, h1⟩ := index_0 t
    obtain ⟨g0, g1⟩ := index_8 t
    refine congrArg (V c main_v68) (funext fun a => Fin.ext ?_)
    match a with
    | ⟨0, _⟩ => show win4_0.index t (0 : Fin 2) * 2000 + 1 * (j 0).val = win4_8.index t (0 : Fin 2) * 2000 + 1 * (j 0).val; rw [h0, g0]
    | ⟨1, _⟩ => show win4_0.index t (1 : Fin 2) * 128 + 1 * k.val = k.val; rw [h1, Nat.zero_mul, Nat.zero_add, Nat.one_mul]
  · funext y
    show V c main_v80 (((cfg4.win 2).blk t).view.emb y) = V c main_v80 y
    obtain ⟨h0, h1⟩ := index_2 t
    refine congrArg (V c main_v80) (funext fun a => Fin.ext ?_)
    match a with
    | ⟨0, _⟩ => show win4_2.index t (0 : Fin 2) * 128 + 1 * (y 0).val = (y 0).val; rw [h0, Nat.zero_mul, Nat.zero_add, Nat.one_mul]
    | ⟨1, _⟩ => show win4_2.index t (1 : Fin 2) * 128 + 1 * (y 1).val = (y 1).val; rw [h1, Nat.zero_mul, Nat.zero_add, Nat.one_mul]
  · funext y
    show V c main_v87 (((cfg4.win 3).blk t).view.emb y) = V c main_v87 y
    obtain ⟨h0, h1⟩ := index_3 t
    refine congrArg (V c main_v87) (funext fun a => Fin.ext ?_)
    match a with
    | ⟨0, _⟩ => show win4_3.index t (0 : Fin 2) * 1 + 1 * (y 0).val = (y 0).val; rw [h0, Nat.zero_mul, Nat.zero_add, Nat.one_mul]
    | ⟨1, _⟩ => show win4_3.index t (1 : Fin 2) * 128 + 1 * (y 1).val = (y 1).val; rw [h1, Nat.zero_mul, Nat.zero_add, Nat.one_mul]
  · funext y
    show V c main_v84 (((cfg4.win 4).blk t).view.emb y) = V c main_v84 y
    obtain ⟨h0, h1⟩ := index_4 t
    refine congrArg (V c main_v84) (funext fun a => Fin.ext ?_)
    match a with
    | ⟨0, _⟩ => show win4_4.index t (0 : Fin 2) * 128 + 1 * (y 0).val = (y 0).val; rw [h0, Nat.zero_mul, Nat.zero_add, Nat.one_mul]
    | ⟨1, _⟩ => show win4_4.index t (1 : Fin 2) * 128 + 1 * (y 1).val = (y 1).val; rw [h1, Nat.zero_mul, Nat.zero_add, Nat.one_mul]
  · funext y
    show V c main_v88 (((cfg4.win 5).blk t).view.emb y) = V c main_v88 y
    obtain ⟨h0, h1⟩ := index_5 t
    refine congrArg (V c main_v88) (funext fun a => Fin.ext ?_)
    match a with
    | ⟨0, _⟩ => show win4_5.index t (0 : Fin 2) * 1 + 1 * (y 0).val = (y 0).val; rw [h0, Nat.zero_mul, Nat.zero_add, Nat.one_mul]
    | ⟨1, _⟩ => show win4_5.index t (1 : Fin 2) * 128 + 1 * (y 1).val = (y 1).val; rw [h1, Nat.zero_mul, Nat.zero_add, Nat.one_mul]
  · show win4_8.index t (1 : Fin 2) * 128 + 1 * (j 1).val = (j 1).val
    rw [(index_8 t).2, Nat.zero_mul, Nat.zero_add, Nat.one_mul]

set_option maxHeartbeats 4000000 in
/-- What point `t` writes back to the logits is band `t` of the read-out of that unit. -/
theorem flushed9_eq (c : Dev nD) (t : Fin cfg4.N) :
    (dat4 V c).flushed 9 t = ((cfg4.win 9).blk t).view.read (Elt Ideal)
      (affine (M := 50000) (K := 128) (N := 1) (unit (M := 50000) (N := 128) (K := 128) (P := 128) (V c main_v78) (V c main_v68) (V c main_v80) (V c main_v87) (V c main_v84) (V c main_v88)) (V c main_arg9) (V c main_v89)) := by
  show (cfg4.win 9).cut (grid4.coords t) ((dat4 V c).after 9 t) = _
  rw [after4_9]
  unfold out4_9
  rw [View.canon_unit_zero origin]
  simp only [View.ld_unit_zero (S := S2000x128) origin, View.ld_unit_zero (S := S128x128) origin, View.ld_unit_zero (S := S1x128) origin,
    View.ld_unit_zero (S := S128x1) origin, View.ld_unit_zero (S := S1x1) origin]
  rw [readout_payload_eq]
  funext j
  refine affine_block (M := 2000) (Q := 50000) (K := 128) (N := 1) (unit (M := 50000) (N := 128) (K := 128) (P := 128) (V c main_v78) (V c main_v68) (V c main_v80) (V c main_v87) (V c main_v84) (V c main_v88)) (V c main_arg9) (V c main_v89)
    (unit (M := 2000) (N := 128) (K := 128) (P := 128) (iblk4 V c 1 t) (iblk4 V c 0 t) (iblk4 V c 2 t) (iblk4 V c 3 t) (iblk4 V c 4 t) (iblk4 V c 5 t))
    (iblk4 V c 6 t) (iblk4 V c 7 t) j (((cfg4.win 9).blk t).view.emb j) (fun k => ?_) ?_ ?_ ?_
  · refine unit_block (M := 2000) (Q := 50000) (N := 128) (K := 128) (P := 128)
      (V c main_v78) (V c main_v68) (V c main_v80) (V c main_v87) (V c main_v84) (V c main_v88)
      (iblk4 V c 1 t) (iblk4 V c 0 t) (iblk4 V c 2 t) (iblk4 V c 3 t) (iblk4 V c 4 t) (iblk4 V c 5 t)
      (ix2 (j 0) k) (ix2 ((((cfg4.win 9).blk t).view.emb j) 0) k) (fun k₂ => ?_) (fun k₂ => ?_) ?_ ?_ ?_ ?_ rfl
    · show V c main_v78 (((cfg4.win 1).blk t).view.emb (ix2 (j 0) k₂)) = V c main_v78 (ix2 ((((cfg4.win 9).blk t).view.emb j) 0) k₂)
      obtain ⟨h0, h1⟩ := index_1 t
      obtain ⟨g0, g1⟩ := index_9 t
      refine congrArg (V c main_v78) (funext fun a => Fin.ext ?_)
      match a with
      | ⟨0, _⟩ => show win4_1.index t (0 : Fin 2) * 2000 + 1 * (j 0).val = win4_9.index t (0 : Fin 2) * 2000 + 1 * (j 0).val; rw [h0, g0]
      | ⟨1, _⟩ => show win4_1.index t (1 : Fin 2) * 128 + 1 * k₂.val = k₂.val; rw [h1, Nat.zero_mul, Nat.zero_add, Nat.one_mul]
    · show V c main_v68 (((cfg4.win 0).blk t).view.emb (ix2 (j 0) k₂)) = V c main_v68 (ix2 ((((cfg4.win 9).blk t).view.emb j) 0) k₂)
      obtain ⟨h0, h1⟩ := index_0 t
      obtain ⟨g0, g1⟩ := index_9 t
      refine congrArg (V c main_v68) (funext fun a => Fin.ext ?_)
      match a with
      | ⟨0, _⟩ => show win4_0.index t (0 : Fin 2) * 2000 + 1 * (j 0).val = win4_9.index t (0 : Fin 2) * 2000 + 1 * (j 0).val; rw [h0, g0]
      | ⟨1, _⟩ => show win4_0.index t (1 : Fin 2) * 128 + 1 * k₂.val = k₂.val; rw [h1, Nat.zero_mul, Nat.zero_add, Nat.one_mul]
    · funext y
      show V c main_v80 (((cfg4.win 2).blk t).view.emb y) = V c main_v80 y
      obtain ⟨h0, h1⟩ := index_2 t
      refine congrArg (V c main_v80) (funext fun a => Fin.ext ?_)
      match a with
      | ⟨0, _⟩ => show win4_2.index t (0 : Fin 2) * 128 + 1 * (y 0).val = (y 0).val; rw [h0, Nat.zero_mul, Nat.zero_add, Nat.one_mul]
      | ⟨1, _⟩ => show win4_2.index t (1 : Fin 2) * 128 + 1 * (y 1).val = (y 1).val; rw [h1, Nat.zero_mul, Nat.zero_add, Nat.one_mul]
    · funext y
      show V c main_v87 (((cfg4.win 3).blk t).view.emb y) = V c main_v87 y
      obtain ⟨h0, h1⟩ := index_3 t
      refine congrArg (V c main_v87) (funext fun a => Fin.ext ?_)
      match a with
      | ⟨0, _⟩ => show win4_3.index t (0 : Fin 2) * 1 + 1 * (y 0).val = (y 0).val; rw [h0, Nat.zero_mul, Nat.zero_add, Nat.one_mul]
      | ⟨1, _⟩ => show win4_3.index t (1 : Fin 2) * 128 + 1 * (y 1).val = (y 1).val; rw [h1, Nat.zero_mul, Nat.zero_add, Nat.one_mul]
    · funext y
      show V c main_v84 (((cfg4.win 4).blk t).view.emb y) = V c main_v84 y
      obtain ⟨h0, h1⟩ := index_4 t
      refine congrArg (V c main_v84) (funext fun a => Fin.ext ?_)
      match a with
      | ⟨0, _⟩ => show win4_4.index t (0 : Fin 2) * 128 + 1 * (y 0).val = (y 0).val; rw [h0, Nat.zero_mul, Nat.zero_add, Nat.one_mul]
      | ⟨1, _⟩ => show win4_4.index t (1 : Fin 2) * 128 + 1 * (y 1).val = (y 1).val; rw [h1, Nat.zero_mul, Nat.zero_add, Nat.one_mul]
    · funext y
      show V c main_v88 (((cfg4.win 5).blk t).view.emb y) = V c main_v88 y
      obtain ⟨h0, h1⟩ := index_5 t
      refine congrArg (V c main_v88) (funext fun a => Fin.ext ?_)
      match a with
      | ⟨0, _⟩ => show win4_5.index t (0 : Fin 2) * 1 + 1 * (y 0).val = (y 0).val; rw [h0, Nat.zero_mul, Nat.zero_add, Nat.one_mul]
      | ⟨1, _⟩ => show win4_5.index t (1 : Fin 2) * 128 + 1 * (y 1).val = (y 1).val; rw [h1, Nat.zero_mul, Nat.zero_add, Nat.one_mul]
  · funext y
    show V c main_arg9 (((cfg4.win 6).blk t).view.emb y) = V c main_arg9 y
    obtain ⟨h0, h1⟩ := index_6 t
    refine congrArg (V c main_arg9) (funext fun a => Fin.ext ?_)
    match a with
    | ⟨0, _⟩ => show win4_6.index t (0 : Fin 2) * 128 + 1 * (y 0).val = (y 0).val; rw [h0, Nat.zero_mul, Nat.zero_add, Nat.one_mul]
    | ⟨1, _⟩ => show win4_6.index t (1 : Fin 2) * 1 + 1 * (y 1).val = (y 1).val; rw [h1, Nat.zero_mul, Nat.zero_add, Nat.one_mul]
  · funext y
    show V c main_v89 (((cfg4.win 7).blk t).view.emb y) = V c main_v89 y
    obtain ⟨h0, h1⟩ := index_7 t
    refine congrArg (V c main_v89) (funext fun a => Fin.ext ?_)
    match a with
    | ⟨0, _⟩ => show win4_7.index t (0 : Fin 2) * 1 + 1 * (y 0).val = (y 0).val; rw [h0, Nat.zero_mul, Nat.zero_add, Nat.one_mul]
    | ⟨1, _⟩ => show win4_7.index t (1 : Fin 2) * 1 + 1 * (y 1).val = (y 1).val; rw [h1, Nat.zero_mul, Nat.zero_add, Nat.one_mul]
  · show win4_9.index t (1 : Fin 2) * 1 + 1 * (j 1).val = (j 1).val
    rw [(index_9 t).2, Nat.zero_mul, Nat.zero_add, Nat.one_mul]

/-- An index of the result is in point `t`'s band iff each coordinate is in the band's range on its axis. -/
theorem mem_band8 (t : Fin cfg4.N) (i : S50000x128.Idx) :
    i ∈ ((cfg4.win 8).blk t).view.set ↔ ∀ a : Fin 2, win4_8.index t a * S2000x128.size a ≤ (i a).val
      ∧ (i a).val < win4_8.index t a * S2000x128.size a + S2000x128.size a := by
  show i ∈ ((View.whole main_v90_0).slice (win4_8.rect t)).set ↔ _
  rw [View.set_slice_whole, Rect.mem_set_unit]
  exact Iff.rfl

/-- The 25 bands tile the result: row `r` is in band `r / 2000`. -/
theorem cover8 (i : S50000x128.Idx) : ∃ t : Fin cfg4.N, (cfg4.win 8).flush t = true ∧ i ∈ ((cfg4.win 8).blk t).view.set := by
  have hi0 : (i 0).val < 50000 := (i 0).isLt
  have hi1 : (i 1).val < 128 := (i 1).isLt
  have hN : cfg4.N = 25 := N_4
  let t : Fin cfg4.N := ⟨(i 0).val / 2000, by rw [hN]; omega⟩
  obtain ⟨e0, e1⟩ := index_8 t
  have ht : t.val = (i 0).val / 2000 := rfl
  refine ⟨t, flush4_8 t, ?_⟩
  rw [mem_band8]
  intro a
  match a with
  | ⟨0, _⟩ => show win4_8.index t (0 : Fin 2) * 2000 ≤ (i 0).val ∧ (i 0).val < win4_8.index t (0 : Fin 2) * 2000 + 2000; omega
  | ⟨1, _⟩ => show win4_8.index t (1 : Fin 2) * 128 ≤ (i 1).val ∧ (i 1).val < win4_8.index t (1 : Fin 2) * 128 + 128; omega

/-- An index of the result is in point `t`'s band iff each coordinate is in the band's range on its axis. -/
theorem mem_band9 (t : Fin cfg4.N) (i : S50000x1.Idx) :
    i ∈ ((cfg4.win 9).blk t).view.set ↔ ∀ a : Fin 2, win4_9.index t a * S2000x1.size a ≤ (i a).val
      ∧ (i a).val < win4_9.index t a * S2000x1.size a + S2000x1.size a := by
  show i ∈ ((View.whole main_v90_1).slice (win4_9.rect t)).set ↔ _
  rw [View.set_slice_whole, Rect.mem_set_unit]
  exact Iff.rfl

/-- The 25 bands tile the result: row `r` is in band `r / 2000`. -/
theorem cover9 (i : S50000x1.Idx) : ∃ t : Fin cfg4.N, (cfg4.win 9).flush t = true ∧ i ∈ ((cfg4.win 9).blk t).view.set := by
  have hi0 : (i 0).val < 50000 := (i 0).isLt
  have hi1 : (i 1).val < 1 := (i 1).isLt
  have hN : cfg4.N = 25 := N_4
  let t : Fin cfg4.N := ⟨(i 0).val / 2000, by rw [hN]; omega⟩
  obtain ⟨e0, e1⟩ := index_9 t
  have ht : t.val = (i 0).val / 2000 := rfl
  refine ⟨t, flush4_9 t, ?_⟩
  rw [mem_band9]
  intro a
  match a with
  | ⟨0, _⟩ => show win4_9.index t (0 : Fin 2) * 2000 ≤ (i 0).val ∧ (i 0).val < win4_9.index t (0 : Fin 2) * 2000 + 2000; omega
  | ⟨1, _⟩ => show win4_9.index t (1 : Fin 2) * 1 ≤ (i 1).val ∧ (i 1).val < win4_9.index t (1 : Fin 2) * 1 + 1; omega

/-- The hidden state after the launch: the unit of the arrays the launch finds. -/
theorem final_hidden (c : Dev nD) : (dat4 V c).arrAt 8 cfg4.N = (unit (M := 50000) (N := 128) (K := 128) (P := 128) (V c main_v78) (V c main_v68) (V c main_v80) (V c main_v87) (V c main_v84) (V c main_v88)) :=
  (dat4 V c).arrAt_eq_of_cover 8 _ (fun t _ => flushed8_eq V c t) cover8

/-- The logits after the launch: the read-out of that unit. -/
theorem final_logits (c : Dev nD) :
    (dat4 V c).arrAt 9 cfg4.N = affine (M := 50000) (K := 128) (N := 1) (unit (M := 50000) (N := 128) (K := 128) (P := 128) (V c main_v78) (V c main_v68) (V c main_v80) (V c main_v87) (V c main_v84) (V c main_v88)) (V c main_arg9) (V c main_v89) :=
  (dat4 V c).arrAt_eq_of_cover 9 _ (fun t _ => flushed9_eq V c t) cover9

end Cert.KernelIdeal.Last

end
-- ==== Proof.KernelValue.lean ====
/-
  The idealized kernel computes the network.

  Boundary by boundary through the program: the first launch leaves the embedding of the features; each stretch of
  host operations leaves the neighbour sums of the hidden state it finds and the coming layer's slices of the stacked
  parameters (read from argument arrays nothing has written), the edge rows computed once staying where they are; each
  later launch leaves the rectified two-layer unit of what the stretch before it left. Substituting one boundary into
  the next gives the last boundary's contents at the two result buffers: the network's logits and final hidden state
  of the argument arrays. The run ends at that boundary.
-/
import proofs.«156105_j54795192762572_1_alg».proof.Proof.KernelRun
import proofs.«156105_j54795192762572_1_alg».proof.Proof.KernelHost
import proofs.«156105_j54795192762572_1_alg».proof.Proof.KernelEmbed
import proofs.«156105_j54795192762572_1_alg».proof.Proof.KernelLayer1
import proofs.«156105_j54795192762572_1_alg».proof.Proof.KernelLayer2
import proofs.«156105_j54795192762572_1_alg».proof.Proof.KernelLayer3
import proofs.«156105_j54795192762572_1_alg».proof.Proof.KernelLast

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Cert.LibMatrixRows Cert.LibAffineRows Cert.Network Cert.KernelIdeal.Stretch

variable (m : (ℓ : Loc nD τ sig) → Buf (Elt Ideal) ℓ) (ρ : Dev nD → PrngReg) (c : Dev nD)

set_option quotPrecheck false

local notation "src" => edgeRow 0 Facts₀.slices_S2x800000_S1x800000_0_0 (m ((c : Thread nD τ).loc main_arg1))
local notation "dst" => edgeRow 1 Facts₀.slices_S2x800000_S1x800000_1_0 (m ((c : Thread nD τ).loc main_arg1))
local notation "H₀" => embed (m ((c : Thread nD τ).loc main_arg0)) (m ((c : Thread nD τ).loc main_arg3)) (m ((c : Thread nD τ).loc main_arg4))
local notation "H₁" => layer 0 Facts₀.slices_S4x128x128_S1x128x128_0_0_0 Facts₀.slices_S4x128_S1x128_0_0 H₀ src dst (m ((c : Thread nD τ).loc main_arg5)) (m ((c : Thread nD τ).loc main_arg6)) (m ((c : Thread nD τ).loc main_arg7)) (m ((c : Thread nD τ).loc main_arg8))
local notation "H₂" => layer 1 Facts₀.slices_S4x128x128_S1x128x128_1_0_0 Facts₀.slices_S4x128_S1x128_1_0 H₁ src dst (m ((c : Thread nD τ).loc main_arg5)) (m ((c : Thread nD τ).loc main_arg6)) (m ((c : Thread nD τ).loc main_arg7)) (m ((c : Thread nD τ).loc main_arg8))
local notation "H₃" => layer 2 Facts₀.slices_S4x128x128_S1x128x128_2_0_0 Facts₀.slices_S4x128_S1x128_2_0 H₂ src dst (m ((c : Thread nD τ).loc main_arg5)) (m ((c : Thread nD τ).loc main_arg6)) (m ((c : Thread nD τ).loc main_arg7)) (m ((c : Thread nD τ).loc main_arg8))

/-! ## The edge rows, computed once, at every later boundary -/

theorem src3 : V3 m ρ c main_v3 = src := by rw [sources_at3, args_at2 m ρ c main_arg1 (by decide)]
theorem dst3 : V3 m ρ c main_v5 = dst := by rw [targets_at3, args_at2 m ρ c main_arg1 (by decide)]
theorem src4 : V4 m ρ c main_v3 = src := by rw [sources_at4, src3]
theorem dst4 : V4 m ρ c main_v5 = dst := by rw [targets_at4, dst3]
theorem src5 : V5 m ρ c main_v3 = src := by rw [sources_at5, src4]
theorem dst5 : V5 m ρ c main_v5 = dst := by rw [targets_at5, dst4]
theorem src6 : V6 m ρ c main_v3 = src := by rw [sources_at6, src5]
theorem dst6 : V6 m ρ c main_v5 = dst := by rw [targets_at6, dst5]
theorem src7 : V7 m ρ c main_v3 = src := by rw [sources_at7, src6]
theorem dst7 : V7 m ρ c main_v5 = dst := by rw [targets_at7, dst6]
theorem src8 : V8 m ρ c main_v3 = src := by rw [sources_at8, src7]
theorem dst8 : V8 m ρ c main_v5 = dst := by rw [targets_at8, dst7]

/-! ## The hidden state after each launch -/

theorem hidden_after1 : V2 m ρ c main_v1 = H₀ := by
  refine ((W2_arr m ρ c 3).trans (Cert.KernelIdeal.Embed.final (V1 m ρ) c)).trans ?_
  rw [features_at1, embedWeight_at1, embedBias_at1]
  rfl

theorem hidden_after2 : V4 m ρ c main_v26 = H₁ := by
  refine ((W4_arr m ρ c 6).trans (Cert.KernelIdeal.Layer1.final (V3 m ρ) c)).trans ?_
  rw [sums_at3, hidden_at3, weight1_at3, bias1_at3, weight2_at3, bias2_at3, hidden_after1,
    args_at2 m ρ c main_arg1 (by decide), args_at2 m ρ c main_arg5 (by decide), args_at2 m ρ c main_arg6 (by decide),
    args_at2 m ρ c main_arg7 (by decide), args_at2 m ρ c main_arg8 (by decide)]
  rfl

theorem hidden_after3 : V6 m ρ c main_v47 = H₂ := by
  refine ((W6_arr m ρ c 6).trans (Cert.KernelIdeal.Layer2.final (V5 m ρ) c)).trans ?_
  rw [sums_at5, hidden_at5, weight1_at5, bias1_at5, weight2_at5, bias2_at5, hidden_after2, src4, dst4,
    args_at4 m ρ c main_arg5 (by decide), args_at4 m ρ c main_arg6 (by decide),
    args_at4 m ρ c main_arg7 (by decide), args_at4 m ρ c main_arg8 (by decide)]
  rfl

theorem hidden_after4 : V8 m ρ c main_v68 = H₃ := by
  refine ((W8_arr m ρ c 6).trans (Cert.KernelIdeal.Layer3.final (V7 m ρ) c)).trans ?_
  rw [sums_at7, hidden_at7, weight1_at7, bias1_at7, weight2_at7, bias2_at7, hidden_after3, src6, dst6,
    args_at6 m ρ c main_arg5 (by decide), args_at6 m ρ c main_arg6 (by decide),
    args_at6 m ρ c main_arg7 (by decide), args_at6 m ρ c main_arg8 (by decide)]
  rfl

/-- The last hidden state is the network's. -/
theorem hidden_after5 : W10 m ρ c (Proc.devRef .tc main_v90_0) = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W10_arr m ρ c 8).trans (Cert.KernelIdeal.Last.final_hidden (V9 m ρ) c)).trans ?_
  rw [sums_at9, hidden_at9, weight1_at9, bias1_at9, weight2_at9, bias2_at9, hidden_after4, src8, dst8,
    args_at8 m ρ c main_arg5 (by decide), args_at8 m ρ c main_arg6 (by decide),
    args_at8 m ρ c main_arg7 (by decide), args_at8 m ρ c main_arg8 (by decide)]
  rfl

/-- The logits are the network's. -/
theorem logits_after5 : W10 m ρ c (Proc.devRef .tc main_v90_1) = logits (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W10_arr m ρ c 9).trans (Cert.KernelIdeal.Last.final_logits (V9 m ρ) c)).trans ?_
  rw [sums_at9, hidden_at9, weight1_at9, bias1_at9, weight2_at9, bias2_at9, readWeight_at9, offset_at9, hidden_after4, src8, dst8,
    args_at8 m ρ c main_arg5 (by decide), args_at8 m ρ c main_arg6 (by decide),
    args_at8 m ρ c main_arg7 (by decide), args_at8 m ρ c main_arg8 (by decide),
    args_at8 m ρ c main_arg9 (by decide), args_at8 m ρ c main_arg10 (by decide)]
  rfl

/-- Every weakly fair execution of the idealized kernel ends with the network's logits and final hidden state of the
    argument arrays at its two results, the arguments unchanged. -/
theorem run : θ_run defs (onTc (τ := τ) (main (F := Ideal))) ⟨m, fun _ => 0, ρ⟩ (fun r => ∀ c : Dev nD,
      r.2.mem ((c.tc : Thread nD τ).loc main_v90_1) = logits (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v90_0) = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (logits_after5 m ρ c), (h c).2.1.trans (hidden_after5 m ρ c), (h c).2.2⟩)
    (Cert.KernelIdeal.Results.run m ρ)

end Cert.KernelIdeal.Whole

end
-- ==== Proof.RefValue.lean ====
/-
  The reference computes the network.

  The reference is one straight line of host operations. Stage by stage: a `dot_general` plus a broadcast bias row is
  an affine layer; a maximum against a zero constant laid over the array is the rectifier; a bias vector laid as one
  row by a broadcast is the same row as the vector reshaped; the gather and scatter-add of the neighbour sum are the
  network's own (the same printed operations), so that every hidden state of the reference is the network's layer of
  the one before, and its two results are the network's logits and final hidden state.
-/
import proofs.«156105_j54795192762572_1_alg».proof.Proof.Gen.ReferenceIdeal.Read
import proofs.«156105_j54795192762572_1_alg».proof.Proof.Network

set_option maxRecDepth 16384

noncomputable section

namespace Cert.ReferenceIdeal.RefValue

open Cert.ReferenceIdeal Cert.ReferenceIdeal.Read Cert.ReferenceIdeal.Facts₀ Cert.ReferenceIdeal.Facts
open Idealize.ShloMosaic Idealize.ShloMosaic.ValueIdx
open Cert.LibMatrixRows Cert.LibAffineRows

/-- The reference's embedding is the network's. -/
theorem embed_eq (x0 : (⟨S50000x128, .f32⟩ : BufTy).Contents (Elt Ideal)) (x3 : (⟨S128x128, .f32⟩ : BufTy).Contents (Elt Ideal)) (x4 : (⟨S128, .f32⟩ : BufTy).Contents (Elt Ideal)) :
    val_main_v3 (F := Ideal) x0 x3 x4 = Cert.Network.embed x0 x3 x4 := by
  unfold val_main_v3 val_main_v0 val_main_v2
  refine (hostAffine_eq (M := 50000) (K := 128) (N := 128) x0 x3 (val_main_v1 (F := Ideal) x4) bcast_S1x128_S50000x128_0_1).trans ?_
  rw [show val_main_v1 (F := Ideal) x4 = shapeCast S1x128 x4 Cert.KernelIdeal.Facts₀.shapeCasts_S128_S1x128 from by
    unfold val_main_v1
    exact (Cert.LibLinear.row_eq_cast (N := 128) _ _ _).symm]
  rfl

/-- Layer 1's bias rows: a bias laid as one row by a broadcast is the bias reshaped to one row. -/
theorem biasRow1_1 (x6 : (⟨S4x128, .f32⟩ : BufTy).Contents (Elt Ideal)) :
    val_main_v24 (F := Ideal) x6 = Cert.Network.biasRow 0 Cert.KernelIdeal.Facts₀.slices_S4x128_S1x128_0_0 x6 := by
  unfold val_main_v24 val_main_v23 val_main_v22
  exact (Cert.LibLinear.row_eq_cast (N := 128) _ _ _).symm
theorem biasRow2_1 (x8 : (⟨S4x128, .f32⟩ : BufTy).Contents (Elt Ideal)) :
    val_main_v33 (F := Ideal) x8 = Cert.Network.biasRow 0 Cert.KernelIdeal.Facts₀.slices_S4x128_S1x128_0_0 x8 := by
  unfold val_main_v33 val_main_v32 val_main_v31
  exact (Cert.LibLinear.row_eq_cast (N := 128) _ _ _).symm

/-- Layer 1 of the reference is the network's layer 0 of the stage before it. -/
theorem layer1_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) :
    val_main_v35 (F := Ideal) x0 x1 x3 x4 x5 x6 x7 x8
      = Cert.Network.layer 0 Cert.KernelIdeal.Facts₀.slices_S4x128x128_S1x128x128_0_0_0 Cert.KernelIdeal.Facts₀.slices_S4x128_S1x128_0_0
          (val_main_v3 (F := Ideal) x0 x3 x4) (val_main_v5 (F := Ideal) x1) (val_main_v7 (F := Ideal) x1) x5 x6 x7 x8 := by
  unfold val_main_v35 val_main_v30 val_main_v34 val_main_v27 val_main_call0_v0 val_main_call0_cst val_main_v26 val_main_v21 val_main_v25
  refine ((hostAffine_eq (M := 50000) (K := 128) (N := 128) _ (val_main_v29 (F := Ideal) x7) (val_main_v33 (F := Ideal) x8) bcast_S1x128_S50000x128_0_1).trans
    (congrArg (fun X => affine (M := 50000) (K := 128) (N := 128) X (val_main_v29 (F := Ideal) x7) (val_main_v33 (F := Ideal) x8))
      ((hostRelu_eq (M := 50000) (N := 128) _ bcast_S_S50000x128).trans
        (congrArg (clampBelow (M := 50000) (N := 128) 0)
          (hostAffine_eq (M := 50000) (K := 128) (N := 128) _ (val_main_v20 (F := Ideal) x5) (val_main_v24 (F := Ideal) x6) bcast_S1x128_S50000x128_0_1))))).trans ?_
  rw [biasRow1_1, biasRow2_1]
  rfl

/-- Layer 2's bias rows: a bias laid as one row by a broadcast is the bias reshaped to one row. -/
theorem biasRow1_2 (x6 : (⟨S4x128, .f32⟩ : BufTy).Contents (Elt Ideal)) :
    val_main_v52 (F := Ideal) x6 = Cert.Network.biasRow 1 Cert.KernelIdeal.Facts₀.slices_S4x128_S1x128_1_0 x6 := by
  unfold val_main_v52 val_main_v51 val_main_v50
  exact (Cert.LibLinear.row_eq_cast (N := 128) _ _ _).symm
theorem biasRow2_2 (x8 : (⟨S4x128, .f32⟩ : BufTy).Contents (Elt Ideal)) :
    val_main_v61 (F := Ideal) x8 = Cert.Network.biasRow 1 Cert.KernelIdeal.Facts₀.slices_S4x128_S1x128_1_0 x8 := by
  unfold val_main_v61 val_main_v60 val_main_v59
  exact (Cert.LibLinear.row_eq_cast (N := 128) _ _ _).symm

/-- Layer 2 of the reference is the network's layer 1 of the stage before it. -/
theorem layer2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) :
    val_main_v63 (F := Ideal) x0 x1 x3 x4 x5 x6 x7 x8
      = Cert.Network.layer 1 Cert.KernelIdeal.Facts₀.slices_S4x128x128_S1x128x128_1_0_0 Cert.KernelIdeal.Facts₀.slices_S4x128_S1x128_1_0
          (val_main_v35 (F := Ideal) x0 x1 x3 x4 x5 x6 x7 x8) (val_main_v5 (F := Ideal) x1) (val_main_v7 (F := Ideal) x1) x5 x6 x7 x8 := by
  unfold val_main_v63 val_main_v58 val_main_v62 val_main_v55 val_main_call1_v0 val_main_call1_cst val_main_v54 val_main_v49 val_main_v53
  refine ((hostAffine_eq (M := 50000) (K := 128) (N := 128) _ (val_main_v57 (F := Ideal) x7) (val_main_v61 (F := Ideal) x8) bcast_S1x128_S50000x128_0_1).trans
    (congrArg (fun X => affine (M := 50000) (K := 128) (N := 128) X (val_main_v57 (F := Ideal) x7) (val_main_v61 (F := Ideal) x8))
      ((hostRelu_eq (M := 50000) (N := 128) _ bcast_S_S50000x128).trans
        (congrArg (clampBelow (M := 50000) (N := 128) 0)
          (hostAffine_eq (M := 50000) (K := 128) (N := 128) _ (val_main_v48 (F := Ideal) x5) (val_main_v52 (F := Ideal) x6) bcast_S1x128_S50000x128_0_1))))).trans ?_
  rw [biasRow1_2, biasRow2_2]
  rfl

/-- Layer 3's bias rows: a bias laid as one row by a broadcast is the bias reshaped to one row. -/
theorem biasRow1_3 (x6 : (⟨S4x128, .f32⟩ : BufTy).Contents (Elt Ideal)) :
    val_main_v80 (F := Ideal) x6 = Cert.Network.biasRow 2 Cert.KernelIdeal.Facts₀.slices_S4x128_S1x128_2_0 x6 := by
  unfold val_main_v80 val_main_v79 val_main_v78
  exact (Cert.LibLinear.row_eq_cast (N := 128) _ _ _).symm
theorem biasRow2_3 (x8 : (⟨S4x128, .f32⟩ : BufTy).Contents (Elt Ideal)) :
    val_main_v89 (F := Ideal) x8 = Cert.Network.biasRow 2 Cert.KernelIdeal.Facts₀.slices_S4x128_S1x128_2_0 x8 := by
  unfold val_main_v89 val_main_v88 val_main_v87
  exact (Cert.LibLinear.row_eq_cast (N := 128) _ _ _).symm

/-- Layer 3 of the reference is the network's layer 2 of the stage before it. -/
theorem layer3_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) :
    val_main_v91 (F := Ideal) x0 x1 x3 x4 x5 x6 x7 x8
      = Cert.Network.layer 2 Cert.KernelIdeal.Facts₀.slices_S4x128x128_S1x128x128_2_0_0 Cert.KernelIdeal.Facts₀.slices_S4x128_S1x128_2_0
          (val_main_v63 (F := Ideal) x0 x1 x3 x4 x5 x6 x7 x8) (val_main_v5 (F := Ideal) x1) (val_main_v7 (F := Ideal) x1) x5 x6 x7 x8 := by
  unfold val_main_v91 val_main_v86 val_main_v90 val_main_v83 val_main_call2_v0 val_main_call2_cst val_main_v82 val_main_v77 val_main_v81
  refine ((hostAffine_eq (M := 50000) (K := 128) (N := 128) _ (val_main_v85 (F := Ideal) x7) (val_main_v89 (F := Ideal) x8) bcast_S1x128_S50000x128_0_1).trans
    (congrArg (fun X => affine (M := 50000) (K := 128) (N := 128) X (val_main_v85 (F := Ideal) x7) (val_main_v89 (F := Ideal) x8))
      ((hostRelu_eq (M := 50000) (N := 128) _ bcast_S_S50000x128).trans
        (congrArg (clampBelow (M := 50000) (N := 128) 0)
          (hostAffine_eq (M := 50000) (K := 128) (N := 128) _ (val_main_v76 (F := Ideal) x5) (val_main_v80 (F := Ideal) x6) bcast_S1x128_S50000x128_0_1))))).trans ?_
  rw [biasRow1_3, biasRow2_3]
  rfl

/-- Layer 4's bias rows: a bias laid as one row by a broadcast is the bias reshaped to one row. -/
theorem biasRow1_4 (x6 : (⟨S4x128, .f32⟩ : BufTy).Contents (Elt Ideal)) :
    val_main_v108 (F := Ideal) x6 = Cert.Network.biasRow 3 Cert.KernelIdeal.Facts₀.slices_S4x128_S1x128_3_0 x6 := by
  unfold val_main_v108 val_main_v107 val_main_v106
  exact (Cert.LibLinear.row_eq_cast (N := 128) _ _ _).symm
theorem biasRow2_4 (x8 : (⟨S4x128, .f32⟩ : BufTy).Contents (Elt Ideal)) :
    val_main_v117 (F := Ideal) x8 = Cert.Network.biasRow 3 Cert.KernelIdeal.Facts₀.slices_S4x128_S1x128_3_0 x8 := by
  unfold val_main_v117 val_main_v116 val_main_v115
  exact (Cert.LibLinear.row_eq_cast (N := 128) _ _ _).symm

/-- Layer 4 of the reference is the network's layer 3 of the stage before it. -/
theorem layer4_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) :
    val_main_v119 (F := Ideal) x0 x1 x3 x4 x5 x6 x7 x8
      = Cert.Network.layer 3 Cert.KernelIdeal.Facts₀.slices_S4x128x128_S1x128x128_3_0_0 Cert.KernelIdeal.Facts₀.slices_S4x128_S1x128_3_0
          (val_main_v91 (F := Ideal) x0 x1 x3 x4 x5 x6 x7 x8) (val_main_v5 (F := Ideal) x1) (val_main_v7 (F := Ideal) x1) x5 x6 x7 x8 := by
  unfold val_main_v119 val_main_v114 val_main_v118 val_main_v111 val_main_call3_v0 val_main_call3_cst val_main_v110 val_main_v105 val_main_v109
  refine ((hostAffine_eq (M := 50000) (K := 128) (N := 128) _ (val_main_v113 (F := Ideal) x7) (val_main_v117 (F := Ideal) x8) bcast_S1x128_S50000x128_0_1).trans
    (congrArg (fun X => affine (M := 50000) (K := 128) (N := 128) X (val_main_v113 (F := Ideal) x7) (val_main_v117 (F := Ideal) x8))
      ((hostRelu_eq (M := 50000) (N := 128) _ bcast_S_S50000x128).trans
        (congrArg (clampBelow (M := 50000) (N := 128) 0)
          (hostAffine_eq (M := 50000) (K := 128) (N := 128) _ (val_main_v104 (F := Ideal) x5) (val_main_v108 (F := Ideal) x6) bcast_S1x128_S50000x128_0_1))))).trans ?_
  rw [biasRow1_4, biasRow2_4]
  rfl

/-- The reference's second result is the network's final hidden state. -/
theorem hidden_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) :
    val_main_v119 (F := Ideal) x0 x1 x3 x4 x5 x6 x7 x8 = Cert.Network.hidden x0 x1 x3 x4 x5 x6 x7 x8 := by
  rw [layer4_eq, layer3_eq, layer2_eq, layer1_eq, embed_eq]
  rfl

/-- The reference's first result is the network's logits. -/
theorem logits_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal)) (x7 : (⟨S4x128x128, .f32⟩ : BufTy).Contents (Elt Ideal)) (x8 : (⟨S4x128, .f32⟩ : BufTy).Contents (Elt Ideal)) (x9 : (⟨S128x1, .f32⟩ : BufTy).Contents (Elt Ideal)) (x10 : (⟨S1, .f32⟩ : BufTy).Contents (Elt Ideal)) :
    val_main_v123 (F := Ideal) x0 x1 x3 x4 x5 x6 x7 x8 x9 x10 = Cert.Network.logits x0 x1 x3 x4 x5 x6 x7 x8 x9 x10 := by
  unfold val_main_v123 val_main_v120 val_main_v122
  refine (hostAffine_eq (M := 50000) (K := 128) (N := 1) _ x9 (val_main_v121 (F := Ideal) x10) bcast_S1x1_S50000x1_0_1).trans ?_
  rw [show val_main_v121 (F := Ideal) x10 = shapeCast S1x1 x10 Cert.KernelIdeal.Facts₀.shapeCasts_S1_S1x1 from by
    unfold val_main_v121
    exact (Cert.LibLinear.row_eq_cast (N := 1) _ _ _).symm, hidden_eq]
  rfl

end Cert.ReferenceIdeal.RefValue

end
-- ==== Proof.lean ====
/-
  A four-layer graph network on 50000 nodes and 800000 edges, computed two ways, means the same extended reals.

  The kernel program embeds the node features with one grid launch, then four times lets the host sum every node's
  in-neighbours' hidden rows (a gather at the sources, a scatter-add at the destinations) and a grid launch apply
  max((h + g) · W₁ + b₁, 0) · W₂ + b₂ band of rows by band of rows; the last launch also reads the logits off. The
  reference does the same with whole-array host operations. At the exact instance a change of float format is the
  identity and both matrix products are plain sums, a band of rows of a product is the product of the band, and the
  neighbour sum is literally the same printed operations on both sides, so both programs end at one function of the
  argument arrays (Proof/Network.lean): Proof/KernelValue.lean for the kernel, Proof/RefValue.lean for the reference.
  No law that needs finiteness is used: the precondition is never opened.

  The three frames are the generated ones (the reference's is its generated run with the results dropped); nothing was
  rewritten by the ideal pass, so the idealization conjunct is trivial.
-/
import proofs.«156105_j54795192762572_1_alg».proof.Defs
import proofs.«156105_j54795192762572_1_alg».proof.Proof.Gen.Kernel
import proofs.«156105_j54795192762572_1_alg».proof.Proof.Gen.Kernel.Skeleton
import proofs.«156105_j54795192762572_1_alg».proof.Proof.Gen.Kernel.Launch
import proofs.«156105_j54795192762572_1_alg».proof.Proof.Gen.Kernel.Points
import proofs.«156105_j54795192762572_1_alg».proof.Proof.Gen.Kernel.Frame
import proofs.«156105_j54795192762572_1_alg».proof.Proof.Gen.KernelIdeal
import proofs.«156105_j54795192762572_1_alg».proof.Proof.Gen.KernelIdeal.Skeleton
import proofs.«156105_j54795192762572_1_alg».proof.Proof.Gen.KernelIdeal.Launch
import proofs.«156105_j54795192762572_1_alg».proof.Proof.Gen.KernelIdeal.Points
import proofs.«156105_j54795192762572_1_alg».proof.Proof.Gen.KernelIdeal.Frame
import proofs.«156105_j54795192762572_1_alg».proof.Proof.Gen.ReferenceIdeal
import proofs.«156105_j54795192762572_1_alg».proof.Proof.Gen.Pre_finite_inputs
import proofs.«156105_j54795192762572_1_alg».proof.Proof.Gen.ReferenceIdeal.Run
import proofs.«156105_j54795192762572_1_alg».proof.Proof.Gen.ReferenceIdeal.Read
import proofs.«156105_j54795192762572_1_alg».proof.Proof.KernelValue
import proofs.«156105_j54795192762572_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the idealized kernel ends at the network's logits and final hidden
    state of its arguments, and the reference at the network's of its own: the same arrays. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v123_eq, Cert.ReferenceIdeal.RefValue.logits_eq, e0, e1, e3, e4, e5, e6, e7, e8, e9, e10]
  · obtain ⟨e0, e1, e2, e3, e4, e5, e6, e7, e8, e9, e10⟩ := hagree c
    rw [Cert.ReferenceIdeal.Read.val_main_v119_eq, Cert.ReferenceIdeal.RefValue.hidden_eq, e0, e1, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
